-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x8192 : Shape := ⟨2, ![1, 8192]⟩
abbrev S64x128 : Shape := ⟨2, ![64, 128]⟩
abbrev S1x1024 : Shape := ⟨2, ![1, 1024]⟩
abbrev S8x128 : Shape := ⟨2, ![8, 128]⟩
abbrev S1 : Shape := ⟨1, ![1]⟩
abbrev S1x1 : Shape := ⟨2, ![1, 1]⟩
abbrev S_ : Shape := ⟨0, ![]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .bf16⟩
  | .hbm, ⟨3, _⟩ => ⟨S8192x1, .f32⟩
  | .hbm, ⟨4, _⟩ => ⟨S1x8192, .f32⟩
  | .hbm, ⟨5, _⟩ => ⟨S8192x1, .i32⟩
  | .hbm, ⟨6, _⟩ => ⟨S1x8192, .i32⟩
  | .hbm, ⟨7, _⟩ => ⟨S64x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1, .i32⟩
  | .local _ .vmem, ⟨13, _⟩ => ⟨S1024x1, .i32⟩
  | .local _ .vmem, ⟨14, _⟩ => ⟨S1x1024, .i32⟩
  | .local _ .vmem, ⟨15, _⟩ => ⟨S1x1024, .i32⟩
  | .local _ .vmem, ⟨16, _⟩ => ⟨S8x128, .f32⟩
  | .local _ .vmem, ⟨17, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1_S1024x1 : S1024x1.ShapeCasts S1024x1
  iota_S1024x1_d0_w32 : S1024x1.Iotas .tc 32 [0]
  iota_S1x1024_d1_w32 : S1x1024.Iotas .tc 32 [1]
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S64x128_S_d0_1 : S64x128.ReducesTo [0, 1] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .i32 = 32 ∨ (Rect.block (s := S8192x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .i32 = 32 ∨ (Rect.block (s := S1x8192) S1x1024.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S64x128.size a
  hwx1_5 : ∀ i : grid1.Coords, EltTy.bits .f32 = 32 ∨ (Rect.block (s := S64x128) S8x128.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S1024x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x1, .i32⟩
  | .hbm, ⟨38, _⟩ => ⟨S1x8192, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .i32⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S8192x8192, .i1⟩
  | .hbm, ⟨49, _⟩ => ⟨S8192x8192, .i1⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S_d0_1 : S8192x8192.ReducesTo [0, 1] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.BStats.lean ====
/-
  Region 0: the row-statistics kernel, at an arbitrary float instance.

  The kernel is run once per grid point by a software pipeline with three windows:
    window 0 — a 1024×1024 f32 block of the input matrix (read only),
    window 1 — a 1024×1024 bf16 block of the first result (written only),
    window 2 — a 1024×1  f32 block of the second result (written only).
  At a grid point the body reads the whole input block once and overwrites each of the two output
  staging buffers, whole, with a value that is a function of the input block alone.

  This file records exactly that: for buffer contents V at the moment the region is entered, the block
  each window addresses at each point, the function of the input block that the body leaves in each output
  buffer, the separation-logic triple of the body, and the data the pipeline's correctness theorem wants
  (arrays, per-point buffer contents, an invariant, shares), ending in the body obligation for every point.
-/
import proofs.«105206_j85383949845128_1_alg».proof.Proof.Gen.Kernel.Launch
import proofs.«105206_j85383949845128_1_alg».proof.Proof.Gen.Kernel.Skeleton
import proofs.«105206_j85383949845128_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of 1024 rows tiles a buffer walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what every TensorCore buffer holds when the region is entered; everything below is a function of it
variable (V : (c : Dev nD) → (b : Ref sig .tc) → Buf (Elt F) ((c : Thread nD τ).loc b))

/-! ## Blocks -/

/-- The block of window w's array that grid point t addresses, as a function on the block's own
    index space: the array's entry contents read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is refetched at every point and the body never writes it, so whichever staging
    buffer is current at point t holds block t — for any proof data that starts from V's array and whose
    body leaves the input block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, dat.after 0 t = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-! ## The rectangles the body touches: each access is of a whole staging buffer -/

abbrev r0_0 : Rect S1024x1024 := Rect.unit (s := S1024x1024) ![0, 0] S1024x1024.size inb_S1024x1024_S1024x1024_0_0
abbrev r0_1 : Rect S1024x1 := Rect.unit (s := S1024x1) ![0, 0] S1024x1.size inb_S1024x1_S1024x1_0_0

/-! ## What the body leaves in the two output buffers -/

/-- The bf16 output buffer after the body, as a function of the input block x0: one store, of the whole
    buffer, of the row-normalised exponentials (plus a small constant) narrowed to bf16. -/
def out0_1 (x0 : Vec F S1024x1024 .f32) : Vec F S1024x1024 .bf16 :=
  View.canon [⟨r0_0, k0_pay3 (View.ld x0 r0_0)⟩]

/-- The column output buffer after the body, as a function of the input block x0: one store, of the whole
    buffer, of the per-row mean of p · log p over the same normalised rows. -/
def out0_2 (x0 : Vec F S1024x1024 .f32) : Vec F S1024x1 .f32 :=
  View.canon [⟨r0_1, k0_pay2 (View.ld x0 r0_0)⟩]

/-- A single store at offset (0,0) of full extent reaches every index of the 1024×1024 buffer. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Likewise for the 1024×1 buffer. -/
theorem cover0_2 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- Run on three whole staging memrefs — the input's holding x0, the outputs' holding anything — the body
    ends with the input's still holding x0 and the outputs' holding out0_1 x0 and out0_2 x0. The body is a
    straight line: load the input; load then overwrite the bf16 buffer; load then overwrite the column
    buffer. The two loads of the output buffers read values nothing uses. -/
theorem sound_kernel0 (c : Dev nD) (E : Set ℕ) (i : grid0.Coords)
    (arg0 : Memref sig .tc .vmem S1024x1024 .f32) (harg0 : arg0.IsWhole)
    (arg1 : Memref sig .tc .vmem S1024x1024 .bf16) (harg1 : arg1.IsWhole)
    (arg2 : Memref sig .tc .vmem S1024x1 .f32) (harg2 : arg2.IsWhole)
    (x0 : Vec F S1024x1024 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out0_1 x0) ∗ owns (c : Thread nD τ) arg2 fullShare (out0_2 x0)) -∗ K ⟨⟩))
      ⊢ wp frame (wpE (defs₀ (F := F)) Variants.none c none) E (cc0__stats_kernel i arg0 harg0 arg1 harg1 arg2 harg2) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- For core c: every array starts at V's contents; after the body at point t the input buffer holds
    block t and each output buffer holds its function of block t; the invariant carried round the loop is
    the one that leaves everything outside the windows untouched; full ownership, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- So the current input staging buffer holds block t when the body is called at t. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the pipeline hands the body at point t: the invariant, the (empty) debt, and the three current
    staging buffers — each at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body must hand back: the same, with each buffer at its after-the-body contents. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the input buffer holds block t, so the body's triple applies with x0 := block t; the
    invariant and the debt do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline theorem asks of the body, at every grid point: the separating products
    over the three windows written out, it is sound_body0. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.BPairFirst.lean ====
/- The second kernel region, one body call at a time.

   The grid is 8 × 8: point t = 8·ti + tj handles row tile ti against column tile tj.  The body first clears
   its 8 × 128 output block when tj = 0, then adds to it (in cell (0, 0) only) the tile's masked sum of squares.
   So a body call is one of two programs: at the first point of a row of the grid the block ends at
   "cleared, then one addition"; at every later point it ends at "what the point before left, plus one addition".
   Here each of the two is run once on arbitrary whole staging buffers; what the output buffer then holds is
   recorded as the list of the pieces the body stored into it. -/
import proofs.«105206_j85383949845128_1_alg».proof.Proof.Gen.Kernel.Launch
import proofs.«105206_j85383949845128_1_alg».proof.Proof.Gen.Kernel.Skeleton
import proofs.«105206_j85383949845128_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: is this the first column tile of its row? -/

/-- The body's test, as it computes it from the grid coordinates: the column-tile coordinate is zero. -/
abbrev firstInRow (i : grid1.Coords) : Prop :=
  (Scalar.cmpi .ne (Scalar.extui (Scalar.cmpi .eq (BitVec.ofNat 32 (i 1).val) 0#32)) 0#32) = 1#1

/-- Over the 64 points, the test holds exactly at the multiples of 8. -/
theorem firstInRow_iff : ∀ t : Fin cfg1.N, firstInRow (grid1.coords t) ↔ t.val % 8 = 0 :=
  (by decide +kernel : ∀ t : Fin grid1.N, firstInRow (grid1.coords t) ↔ t.val % 8 = 0)

/-! ## The staging buffers the pipeline hands the body at a point -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)

/-- One staging buffer of the output window, through which its contents are stated. -/
abbrev outView : View sig .tc .vmem S8x128 .f32 := (Memref.whole cc1_stg5_0 : Memref sig .tc .vmem S8x128 .f32).view

/-! ## The body at the first point of a row of the grid -/

set_option maxHeartbeats 1000000 in
/-- With the test true, on whole staging buffers holding the five input blocks and anything in the output's,
    the body runs to its end, the inputs' buffers as they were and the output's with the body's stores written:
    the list of those stores (last first) is the witness. -/
noncomputable def pairRunFirst (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : firstInRow i)
    (x0 : Vec F S1024x1024 .bf16) (x1 : Vec F S1024x1024 .bf16) (x2 : Vec F S1x1024 .f32) (x3 : Vec F S1024x1 .i32) (x4 : Vec F S1x1024 .i32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ (∃ d, owns (c : Thread nD τ) a5 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L)) -∗ K ⟨⟩))
          ⊢ wp frame (wpE (defs₀ (F := F)) Variants.none c none) E (cc1__pairwise_kernel i a0 h0 a1 h1 a2 h2 a3 h3 a4 h4 a5 h5) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h0.eq_unread hf0; obtain rfl := h1.eq_unread hf1; obtain rfl := h2.eq_unread hf2
    obtain rfl := h3.eq_unread hf3; obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Hand

end
-- ==== Proof.BPairLater.lean ====
/- The second kernel region's body at a point that is NOT the first of its row of the grid: the output block is
   not cleared, so what the body adds lands on what the point before left there. -/
import proofs.«105206_j85383949845128_1_alg».proof.Proof.BPairFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the test false, on whole staging buffers holding the five input blocks and the output's holding `xo`,
    the body runs to its end, the inputs' buffers as they were and the output's with the body's stores written
    over `xo`: the list of those stores (last first) is the witness. -/
noncomputable def pairRunLater (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : ¬firstInRow i)
    (x0 : Vec F S1024x1024 .bf16) (x1 : Vec F S1024x1024 .bf16) (x2 : Vec F S1x1024 .f32) (x3 : Vec F S1024x1 .i32) (x4 : Vec F S1x1024 .i32)
    (xo : Vec F S8x128 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare xo
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L)) -∗ K ⟨⟩))
          ⊢ wp frame (wpE (defs₀ (F := F)) Variants.none c none) E (cc1__pairwise_kernel i a0 h0 a1 h1 a2 h2 a3 h3 a4 h4 a5 h5) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Hand

end
-- ==== Proof.BPair.lean ====
/- The second kernel region over the whole grid, at a parameter V (the buffers' contents when the region is entered).

   At point t = 8·ti + tj the five input windows hold: rows of tile ti of the probabilities (window 0), rows of
   tile tj of the same array (window 1), columns of tile tj of the self terms laid out as one row (window 2), the
   labels of tile ti as a column (window 3) and of tile tj as a row (window 4).  Windows 0 and 3 move only when ti
   changes, so they are fetched at the multiples of 8 and found in place otherwise.  The output window's block
   index is (ti, 0): its staging buffer is written back once per row of the grid, after tj = 7, and in between it
   carries the running sum.  `accAt` is that running content by recursion on the point.
   Windows 0 and 1 read ONE array; the full share of that array is dealt between them, left and right. -/
import proofs.«105206_j85383949845128_1_alg».proof.Proof.BPairLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the output's staging buffer holds after each point -/

/-- After the body at position `n`: at a multiple of 8 the first-point run's stores read back (the buffer was
    cleared, then added to); otherwise the later-point run's stores over what position `n - 1` left. -/
def accAt (c : Dev nD) : (n : ℕ) → n < cfg1.N → Vec F S8x128 .f32
  | 0, hn => outView.read (Elt F) (outView.writes (Elt F) outView.junk
      (pairRunFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        (ms1_3 ⟨0, hn⟩) (hs1_3 ⟨0, hn⟩) (ms1_4 ⟨0, hn⟩) (hs1_4 ⟨0, hn⟩) (ms1_5 ⟨0, hn⟩) (hs1_5 ⟨0, hn⟩)
        ((firstInRow_iff ⟨0, hn⟩).mpr (Nat.zero_mod _))
        (iblk1 V c 0 ⟨0, hn⟩) (iblk1 V c 1 ⟨0, hn⟩) (iblk1 V c 2 ⟨0, hn⟩) (iblk1 V c 3 ⟨0, hn⟩) (iblk1 V c 4 ⟨0, hn⟩)).1)
  | n + 1, hn =>
    if h0 : (n + 1) % 8 = 0 then
      outView.read (Elt F) (outView.writes (Elt F) outView.junk
        (pairRunFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
          (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩)
          ((firstInRow_iff ⟨n + 1, hn⟩).mpr h0)
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)).1)
    else
      outView.read (Elt F) (outView.writes (Elt F) outView.junk
        (pairRunLater c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
          (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩)
          (fun h => h0 ((firstInRow_iff ⟨n + 1, hn⟩).mp h))
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
          (accAt c n (Nat.lt_of_succ_lt hn))).1)

/-- `accAt` at a multiple of 8. -/
theorem accAt_first (c : Dev nD) (t : Fin cfg1.N) (h0 : t.val % 8 = 0) :
    accAt V c t.val t.isLt = outView.read (Elt F) (outView.writes (Elt F) outView.junk
      (pairRunFirst c (grid1.coords t) (ms1_0 t) (hs1_0 t) (ms1_1 t) (hs1_1 t) (ms1_2 t) (hs1_2 t) (ms1_3 t) (hs1_3 t) (ms1_4 t) (hs1_4 t) (ms1_5 t) (hs1_5 t)
        ((firstInRow_iff t).mpr h0) (iblk1 V c 0 t) (iblk1 V c 1 t) (iblk1 V c 2 t) (iblk1 V c 3 t) (iblk1 V c 4 t)).1) := by
  obtain ⟨n, hn⟩ := t
  cases n with
  | zero => exact rfl
  | succ n => exact (dif_pos h0).trans rfl

/-- `accAt` elsewhere: over what the point before left. -/
theorem accAt_later (c : Dev nD) (t : Fin cfg1.N) (h0 : ¬t.val % 8 = 0) :
    accAt V c t.val t.isLt = outView.read (Elt F) (outView.writes (Elt F) outView.junk
      (pairRunLater c (grid1.coords t) (ms1_0 t) (hs1_0 t) (ms1_1 t) (hs1_1 t) (ms1_2 t) (hs1_2 t) (ms1_3 t) (hs1_3 t) (ms1_4 t) (hs1_4 t) (ms1_5 t) (hs1_5 t)
        (fun h => h0 ((firstInRow_iff t).mp h)) (iblk1 V c 0 t) (iblk1 V c 1 t) (iblk1 V c 2 t) (iblk1 V c 3 t) (iblk1 V c 4 t)
        (accAt V c (t.val - 1) (Nat.lt_of_le_of_lt (Nat.sub_le _ _) t.isLt))).1) := by
  obtain ⟨n, hn⟩ := t
  cases n with
  | zero => exact (by exfalso; (try dsimp only at h0); exact absurd (Nat.zero_mod _) h0)
  | succ n => exact (dif_neg h0).trans rfl

/-- Either run's stores cover the 8 × 128 block. -/
theorem cover_first (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : firstInRow i) (x0 : Vec F S1024x1024 .bf16) (x1 : Vec F S1024x1024 .bf16) (x2 : Vec F S1x1024 .f32) (x3 : Vec F S1024x1 .i32) (x4 : Vec F S1x1024 .i32)
    (y : S8x128.Idx) : ∃ pc ∈ (pairRunFirst c i a0 h0 a1 h1 a2 h2 a3 h3 a4 h4 a5 h5 hc x0 x1 x2 x3 x4).1, y ∈ pc.1.set :=
  View.cover_of_tiledL (pairRunFirst c i a0 h0 a1 h1 a2 h2 a3 h3 a4 h4 a5 h5 hc x0 x1 x2 x3 x4).1 S8x128.size (by sl_kernel_rfl) y

theorem cover_later (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : ¬firstInRow i) (x0 : Vec F S1024x1024 .bf16) (x1 : Vec F S1024x1024 .bf16) (x2 : Vec F S1x1024 .f32) (x3 : Vec F S1024x1 .i32) (x4 : Vec F S1x1024 .i32)
    (xo : Vec F S8x128 .f32)
    (y : S8x128.Idx) : ∃ pc ∈ (pairRunLater c i a0 h0 a1 h1 a2 h2 a3 h3 a4 h4 a5 h5 hc x0 x1 x2 x3 x4 xo).1, y ∈ pc.1.set :=
  View.cover_of_tiledL (pairRunLater c i a0 h0 a1 h1 a2 h2 a3 h3 a4 h4 a5 h5 hc x0 x1 x2 x3 x4 xo).1 S8x128.size (by sl_kernel_rfl) y

/-! ## The pipeline's proof data -/

/-- The proof data of the second pipeline on core `c`: the arrays as the region finds them; after the body each
    input's buffer at its block and the output's at the running sum; the invariant is the scoped rest and the
    generator register, untouched; nothing owed; the array read twice held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt V c t.val t.isLt
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt V c t.val t.isLt := by dsimp only [dat1]

/-- An input window's staging buffer holds its block at every point, whether the pipeline fetched it there or
    found it in place (then the block index did not move): the body leaves inputs alone. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Away from the multiples of 8 the output's staging buffer holds what the body left at the point before:
    it is written back only after the last column tile of a row. -/
theorem before1_5_later (c : Dev nD) (t : Fin cfg1.N) (h0 : ¬t.val % 8 = 0) (d) :
    (dat1 V c).before 5 t d = accAt V c (t.val - 1) (Nat.lt_of_le_of_lt (Nat.sub_le _ _) t.isLt) := by
  have hN : t.val < 64 := lt_of_lt_of_eq t.isLt (show cfg1.N = 64 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' buffers hold their blocks; the closed form of the test says which of the
    two runs applies; away from the multiples of 8 the output's buffer holds the running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 8 = 0
  · rw [accAt_first V c t h0]
    iintro ⟨HΦ, Ho, ⟨%d0, H0⟩, ⟨%d1, H1⟩, ⟨%d2, H2⟩, ⟨%d3, H3⟩, ⟨%d4, H4⟩, ⟨%d5, H5⟩⟩
    iapply ((pairRunFirst c (grid1.coords t) _ _ _ _ _ _ _ _ _ _ _ _ ((firstInRow_iff t).mpr h0)
      (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_first c _ _ _ _ _ _ _ _ _ _ _ _ _ _ _ _ _ _ _)
  · rw [accAt_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply ((pairRunLater c (grid1.coords t) _ _ _ _ _ _ _ _ _ _ _ _ (fun h => h0 ((firstInRow_iff t).mp h))
      (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_later c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.BRunA.lean ====
/- The whole program as four segments: the first kernel region, three re-layouts on the host, the second kernel
   region, and the host's final sum and division.

   Between segments a core holds every unscoped buffer whole at known contents.  Those contents are a fold from
   the launch memory: a kernel region replaces each of its output arrays by what its write-backs leave (and
   touches nothing else), a host stretch applies its operations.  Beside the buffers ride the generator register
   (the kernels' invariant takes it in and hands it back) and the fact that the core owes no other core anything. -/
import proofs.«105206_j85383949845128_1_alg».proof.Proof.BStats
import proofs.«105206_j85383949845128_1_alg».proof.Proof.BPair

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- The same read at the TensorCore's references: what the first region's proof data take. -/
abbrev X0 : (c : Dev nD) → (b : Ref sig .tc) → Buf (Elt F) ((c : Thread nD τ).loc b) := fun c b => W0 m c b

/-- What the first region leaves in its two output arrays: the write-backs of all 8 points folded. -/
def probsOut (c : Dev nD) : Buf (Elt F) ((c : Thread nD τ).loc main_v0_0) := (dat0 (X0 m) c).arrAt 1 cfg0.N
def selfOut (c : Dev nD) : Buf (Elt F) ((c : Thread nD τ).loc main_v0_1) := (dat0 (X0 m) c).arrAt 2 cfg0.N

/-- After the first region: its two output arrays replaced, everything else as launched. -/
def W1 (c : Dev nD) : Valuation τ sig (Elt F) :=
  Function.update (Function.update (W0 m c) main_v0_0 (probsOut m c)) main_v0_1 (selfOut m c)
/-- After the three re-layouts. -/
abbrev W2 (c : Dev nD) : Valuation τ sig (Elt F) := StableHlo.after hostOps1 (W1 m c)
abbrev X2 : (c : Dev nD) → (b : Ref sig .tc) → Buf (Elt F) ((c : Thread nD τ).loc b) := fun c b => W2 m c b

/-- What the second region leaves in its output array. -/
def sumsOut (c : Dev nD) : Buf (Elt F) ((c : Thread nD τ).loc main_v4) := (dat1 (X2 m) c).arrAt 5 cfg1.N

/-- After the second region: its output array replaced. -/
def W3 (c : Dev nD) : Valuation τ sig (Elt F) := Function.update (W2 m c) main_v4 (sumsOut m c)
/-- After the host's sum and division: the end. -/
abbrev W4 (c : Dev nD) : Valuation τ sig (Elt F) := StableHlo.after hostOps2 (W3 m c)

theorem ne_ref {a b : Ref sig .tc} (h : a ≠ b) : (Proc.devRef .tc a : DevRef τ sig) ≠ Proc.devRef .tc b :=
  StableHlo.devRef_ne_of_ne h

theorem W1_probs (c : Dev nD) : W1 m c main_v0_0 = probsOut m c := by
  unfold W1; rw [Function.update_of_ne (ne_ref (by decide)), Function.update_self]
theorem W1_self (c : Dev nD) : W1 m c main_v0_1 = selfOut m c := by
  unfold W1; rw [Function.update_self]
theorem W1_other (c : Dev nD) (b : Ref sig .tc) (h0 : b ≠ main_v0_0) (h1 : b ≠ main_v0_1) : W1 m c b = W0 m c b := by
  unfold W1; rw [Function.update_of_ne (ne_ref h1), Function.update_of_ne (ne_ref h0)]
theorem W3_sums (c : Dev nD) : W3 m c main_v4 = sumsOut m c := by
  unfold W3; rw [Function.update_self]
theorem W3_other (c : Dev nD) (b : Ref sig .tc) (h : b ≠ main_v4) : W3 m c b = W2 m c b := by
  unfold W3; rw [Function.update_of_ne (ne_ref h)]

/-! ## The proof data family, the riders, the host segments -/

/-- No pallas_call has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (X0 m) c
  | ⟨1, _⟩ => fun c => dat1 (X2 m) c

abbrev 𝒱₀ : Variants := Variants.none
abbrev L : GSem nD τ sig → Finset Unit := fun _ => ∅
abbrev lv : GSem nD τ sig → Unit → ℕ := fun _ _ => 0

/-- Nothing owed. -/
abbrev Owes0 (c : Dev nD) : sProp 𝕄 := iprop(∃ W, owes (c : Thread nD τ) (0 : CellTallies nD τ sig Unit) W)
/-- The generator register at some state, and nothing owed. -/
abbrev R (c : Dev nD) : sProp 𝕄 := iprop((∃ r, prngReg c r) ∗ Owes0 c)

/-- A host stretch as a segment over all unscoped buffers from contents `W`, `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rd : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

/-- Each of the first region's arrays ends at what the boundary after it says. -/
theorem exit0_arr (c : Dev nD) (w : Fin cfg0.W) : (dat0 (X0 m) c).arrAt w cfg0.N = W1 m c (Pipeline.arrRef spec0 w) := by
  match w with
  | ⟨0, _⟩ => exact ((dat0 (X0 m) c).arrAt_in 0 rfl _).trans ((A_eq0 (X0 m) c 0).trans (W1_other m c main_arg0 (by decide) (by decide)).symm)
  | ⟨1, _⟩ => exact (W1_probs m c).symm
  | ⟨2, _⟩ => exact (W1_self m c).symm
theorem exit0_rest (c : Dev nD) : ∀ b : Ref sig .tc, b ∉ Finset.univ.image (Pipeline.arrRef spec0) → W1 m c b = W0 m c b := fun b hb =>
  W1_other m c b (fun e => hb (Finset.mem_image.mpr ⟨1, Finset.mem_univ _, e.symm⟩)) (fun e => hb (Finset.mem_image.mpr ⟨2, Finset.mem_univ _, e.symm⟩))

set_option backward.isDefEq.respectTransparency.types false in
/-- The first region, entered from the launch contents and left at `W1`: its three arrays are split out of the
    unscoped buffers and put back at their exit contents; the generator register goes into the kernel's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X0 m c) (fun b => W1 m c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BRunB.lean ====
/- The second kernel region as a segment.  Two of its input windows read ONE array (the probabilities), so the
   buffers behind its arrays are five, not six: at entry the probabilities' buffer, held whole, is dealt to the
   two windows as a left and a right half share; at exit the two halves, which still hold the same contents
   (inputs are never written), are joined again.  Only the output array's contents change. -/
import proofs.«105206_j85383949845128_1_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers behind the second region's arrays, and the windows' shares of them -/

section Shares

variable (c : Dev nD) (Vd : (c : Dev nD) → (b : Ref sig .tc) → Buf (Elt F) ((c : Thread nD τ).loc b))
  (V : (b : Ref sig .tc) → Buf (Elt F) ((c : Thread nD τ).loc b))
  (G : (w : Fin cfg1.W) → Buf (Elt F) ((cfg1.win w).arr.view.loc (c : Thread nD τ)))

/-- The windows' arrays, each a whole buffer, at the windows' shares. -/
theorem arrays1_whole : ((dat1 Vd c).arrays G : sProp 𝕄)
    = bigSep Finset.univ fun w : Fin cfg1.W => (((c : Thread nD τ).loc (Pipeline.arrRef spec1 w)) ↦{(dat1 Vd c).share w} G w : sProp 𝕄) := by
  unfold Pipeline.Dat.arrays
  exact bigSep_congr fun w _ => by rw [(arr_whole1 w).set_eq_univ]

/-- The five buffers, one by one. -/
theorem arrBufs1_list : (Pipeline.arrBufs (Ix := Unit) (Name := ℕ) (U := UR sig nD τ) (Lvl := ℕ) spec1 c V : sProp 𝕄)
    = iprop((((c : Thread nD τ).loc main_v0_0) ↦{fullShare} V main_v0_0) ∗ (((c : Thread nD τ).loc main_v1) ↦{fullShare} V main_v1)
        ∗ (((c : Thread nD τ).loc main_v2) ↦{fullShare} V main_v2) ∗ (((c : Thread nD τ).loc main_v3) ↦{fullShare} V main_v3)
        ∗ (((c : Thread nD τ).loc main_v4) ↦{fullShare} V main_v4)) := by
  unfold Pipeline.arrBufs
  exact bigSep_eq_bigSepL_of_eq [main_v0_0, main_v1, main_v2, main_v3, main_v4] (by decide) (by decide) _

/-- ENTRY: the five buffers at contents `V` are the six windows' arrays at those contents, the probabilities'
    buffer dealt left and right. -/
theorem split1 (hG : ∀ w, G w = V (Pipeline.arrRef spec1 w)) :
    (Pipeline.arrBufs (Ix := Unit) (Name := ℕ) (U := UR sig nD τ) (Lvl := ℕ) spec1 c V : sProp 𝕄) ⊢ (dat1 Vd c).arrays G := by
  rw [arrays1_whole, arrBufs1_list, bigSep_W1, hG 0, hG 1, hG 2, hG 3, hG 4, hG 5]
  iintro ⟨Ha, H1, H2, H3, H4⟩
  ihave Hs := (pointsTo_share (PosShare.mem_left_op_right fullShare)).1 $$ Ha
  icases Hs with ⟨Hl, Hr⟩
  isplitl [Hl]; · iexact Hl
  isplitl [Hr]; · iexact Hr
  isplitl [H1]; · iexact H1
  isplitl [H2]; · iexact H2
  isplitl [H3]; · iexact H3
  iexact H4

/-- EXIT: the same, backwards. -/
theorem join1 (hG : ∀ w, G w = V (Pipeline.arrRef spec1 w)) :
    ((dat1 Vd c).arrays G : sProp 𝕄) ⊢ Pipeline.arrBufs (Ix := Unit) (Name := ℕ) (U := UR sig nD τ) (Lvl := ℕ) spec1 c V := by
  rw [arrays1_whole, arrBufs1_list, bigSep_W1, hG 0, hG 1, hG 2, hG 3, hG 4, hG 5]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

end Shares

variable (m : (ℓ : Loc nD τ sig) → Buf (Elt F) ℓ) (ρ : Dev nD → PrngReg)

/-- Each of the second region's arrays ends at what the boundary after it says: the inputs as entered, the output
    at its folded write-backs. -/
theorem exit1_arr (c : Dev nD) (w : Fin cfg1.W) : (dat1 (X2 m) c).arrAt w cfg1.N = W3 m c (Pipeline.arrRef spec1 w) := by
  match w with
  | ⟨0, _⟩ => exact ((dat1 (X2 m) c).arrAt_in 0 rfl _).trans ((A_eq1 (X2 m) c 0).trans (W3_other m c main_v0_0 (by decide)).symm)
  | ⟨1, _⟩ => exact ((dat1 (X2 m) c).arrAt_in 1 rfl _).trans ((A_eq1 (X2 m) c 1).trans (W3_other m c main_v0_0 (by decide)).symm)
  | ⟨2, _⟩ => exact ((dat1 (X2 m) c).arrAt_in 2 rfl _).trans ((A_eq1 (X2 m) c 2).trans (W3_other m c main_v1 (by decide)).symm)
  | ⟨3, _⟩ => exact ((dat1 (X2 m) c).arrAt_in 3 rfl _).trans ((A_eq1 (X2 m) c 3).trans (W3_other m c main_v2 (by decide)).symm)
  | ⟨4, _⟩ => exact ((dat1 (X2 m) c).arrAt_in 4 rfl _).trans ((A_eq1 (X2 m) c 4).trans (W3_other m c main_v3 (by decide)).symm)
  | ⟨5, _⟩ => exact (W3_sums m c).symm

/-- The buffers that are no array of the second region are not touched by it. -/
theorem rest1_eq (c : Dev nD) :
    (Pipeline.unscopedRest (Ix := Unit) (Name := ℕ) (U := UR sig nD τ) (Lvl := ℕ) spec1 c (X2 m c) : sProp 𝕄)
      = Pipeline.unscopedRest (Ix := Unit) (Name := ℕ) (U := UR sig nD τ) (Lvl := ℕ) spec1 c (fun b => W3 m c b) := by
  unfold Pipeline.unscopedRest
  refine bigSep_congr fun b hb => ?_
  have hne : b ≠ main_v4 := fun e => (Finset.mem_sdiff.mp hb).2 (Finset.mem_image.mpr ⟨5, Finset.mem_univ _, e.symm⟩)
  exact congrArg (fun v => (((c : Thread nD τ).loc b) ↦{fullShare} v : sProp 𝕄)) (W3_other m c b hne).symm

set_option backward.isDefEq.respectTransparency.types false in
/-- The second region, entered from `W2` and left at `W3` with nothing owed (the generator register is let go:
    nothing after the region needs it). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ Owes0 c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hub : (StableHlo.held (c : Thread nD τ) (Pipeline.ucRefs τ sig) (W2 m c) : sProp 𝕄)
        = iprop(Pipeline.arrBufs (Ix := Unit) (Name := ℕ) (U := UR sig nD τ) (Lvl := ℕ) spec1 c (X2 m c)
            ∗ Pipeline.unscopedRest (Ix := Unit) (Name := ℕ) (U := UR sig nD τ) (Lvl := ℕ) spec1 c (X2 m c)) := by
      rw [← Pipeline.unscopedBufs_held c (W2 m c)]
      exact Pipeline.unscopedBufs_split₀ (Ix := Unit) (Name := ℕ) (U := UR sig nD τ) (Lvl := ℕ) (Pipeline.pin (pcfgs (F := F)) adm) 1 winFacts₀1.arr_unscoped c (X2 m c)
    have hsplit : (StableHlo.held (c : Thread nD τ) (Pipeline.ucRefs τ sig) (W2 m c) : sProp 𝕄)
        ⊢ iprop(Pipeline.arrBufs (Ix := Unit) (Name := ℕ) (U := UR sig nD τ) (Lvl := ℕ) spec1 c (X2 m c)
            ∗ Pipeline.unscopedRest (Ix := Unit) (Name := ℕ) (U := UR sig nD τ) (Lvl := ℕ) spec1 c (X2 m c)) := by
      rw [hub]
    iintro ⟨⟨Hub, Hp, HO⟩, -, -⟩
    ihave H := hsplit $$ Hub
    icases H with ⟨Ha, Hrest⟩
    imodintro
    isplitl [Ha]
    · iapply (split1 c (X2 m) (X2 m c) ((pdats m 1 c).arrAt · 0) fun _ => rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W3 m c) : sProp 𝕄)
        = iprop(Pipeline.arrBufs (Ix := Unit) (Name := ℕ) (U := UR sig nD τ) (Lvl := ℕ) spec1 c (fun b => W3 m c b)
            ∗ Pipeline.unscopedRest (Ix := Unit) (Name := ℕ) (U := UR sig nD τ) (Lvl := ℕ) spec1 c (fun b => W3 m c b)) := by
      rw [← Pipeline.unscopedBufs_held c (W3 m c)]
      exact Pipeline.unscopedBufs_split₀ (Ix := Unit) (Name := ℕ) (U := UR sig nD τ) (Lvl := ℕ) (Pipeline.pin (pcfgs (F := F)) adm) 1 winFacts₀1.arr_unscoped c (fun b => W3 m c b)
    have hjoin : iprop(Pipeline.arrBufs (Ix := Unit) (Name := ℕ) (U := UR sig nD τ) (Lvl := ℕ) spec1 c (fun b => W3 m c b)
            ∗ Pipeline.unscopedRest (Ix := Unit) (Name := ℕ) (U := UR sig nD τ) (Lvl := ℕ) spec1 c (X2 m c))
        ⊢ (StableHlo.held (c : Thread nD τ) (Pipeline.ucRefs τ sig) (W3 m c) : sProp 𝕄) := by
      rw [hub, rest1_eq m c]
    iintro ⟨Ha, HO, -, Hrest⟩
    imodintro
    isplitl [Ha Hrest]
    · iapply hjoin
      isplitl [Ha]
      · iapply (join1 c (X2 m) (fun b => W3 m c b) ((pdats m 1 c).arrAt · cfg1.N) (exit1_arr m c))
        iexact Ha
      iexact Hrest
    unfold Pipeline.Dat.owesAt Pipeline.owesWithin
    icases HO with ⟨%W, -, HO⟩; iexists W; iexact HO

end Cert.Kernel.Hand

end
-- ==== Proof.BRunC.lean ====
/- The program's run: its four segments in order, launched from any memory with zero counters.  Every weakly fair
   execution terminates, and in the final memory every unscoped buffer holds the last boundary's contents `W4` — in
   particular the two argument arrays hold what they were launched with (no host operation writes them and the
   regions only read them), and the result holds the host's sum and division applied to what the second region left. -/
import proofs.«105206_j85383949845128_1_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four segments. -/
abbrev segs : List (Pipeline.Seg (pcfgs (F := F)) adm (pdats m) () defs₀ 𝒱₀ L lv) :=
  [ .region (reg0 m),
    .host (hseg hostOps1 hostOps1_sub hostOps1_fresh (W1 m) R),
    .region (reg1 m),
    .host (hseg hostOps2 hostOps2_sub hostOps2_fresh (W3 m) Owes0) ]

/-- @main is the run of the segments. -/
theorem main_run (c : Dev nD) : main (F := F) c = Pipeline.Seg.run (segs m) := (main_chain c).trans (by chain_rfl)

/-- The last thread state: every unscoped buffer at `W4`. -/
abbrev Tend (c : Dev nD) : sProp 𝕄 := StableHlo.held (c : Thread nD τ) (Pipeline.ucRefs τ sig) (W4 m c)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold Tend StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

theorem W4_arg0 (c : Dev nD) : W4 m c main_arg0 = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_other m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_other m c main_arg0 (by decide) (by decide)
    _ = m ((c : Thread nD τ).loc main_arg0) := rfl

theorem W4_arg1 (c : Dev nD) : W4 m c main_arg1 = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_other m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_other m c main_arg1 (by decide) (by decide)
    _ = m ((c : Thread nD τ).loc main_arg1) := rfl

/-- THE FRAME: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg0 m c), (h c _ (mem_uc main_arg1 (by decide))).trans (W4_arg1 m c)⟩)
    (run_all m ρ)

end Cert.Kernel.Hand

end
-- ==== Proof.IStats.lean ====
/-
  Region 0: the row-statistics kernel, at an arbitrary float instance.

  The kernel is run once per grid point by a software pipeline with three windows:
    window 0 — a 1024×1024 f32 block of the input matrix (read only),
    window 1 — a 1024×1024 bf16 block of the first result (written only),
    window 2 — a 1024×1  f32 block of the second result (written only).
  At a grid point the body reads the whole input block once and overwrites each of the two output
  staging buffers, whole, with a value that is a function of the input block alone.

  This file records exactly that: for buffer contents V at the moment the region is entered, the block
  each window addresses at each point, the function of the input block that the body leaves in each output
  buffer, the separation-logic triple of the body, and the data the pipeline's correctness theorem wants
  (arrays, per-point buffer contents, an invariant, shares), ending in the body obligation for every point.
-/
import proofs.«105206_j85383949845128_1_alg».proof.Proof.Gen.KernelIdeal.Launch
import proofs.«105206_j85383949845128_1_alg».proof.Proof.Gen.KernelIdeal.Skeleton
import proofs.«105206_j85383949845128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of 1024 rows tiles a buffer walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what every TensorCore buffer holds when the region is entered; everything below is a function of it
variable (V : (c : Dev nD) → (b : Ref sig .tc) → Buf (Elt F) ((c : Thread nD τ).loc b))

/-! ## Blocks -/

/-- The block of window w's array that grid point t addresses, as a function on the block's own
    index space: the array's entry contents read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is refetched at every point and the body never writes it, so whichever staging
    buffer is current at point t holds block t — for any proof data that starts from V's array and whose
    body leaves the input block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, dat.after 0 t = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-! ## The rectangles the body touches: each access is of a whole staging buffer -/

abbrev r0_0 : Rect S1024x1024 := Rect.unit (s := S1024x1024) ![0, 0] S1024x1024.size inb_S1024x1024_S1024x1024_0_0
abbrev r0_1 : Rect S1024x1 := Rect.unit (s := S1024x1) ![0, 0] S1024x1.size inb_S1024x1_S1024x1_0_0

/-! ## What the body leaves in the two output buffers -/

/-- The bf16 output buffer after the body, as a function of the input block x0: one store, of the whole
    buffer, of the row-normalised exponentials (plus a small constant) narrowed to bf16. -/
def out0_1 (x0 : Vec F S1024x1024 .f32) : Vec F S1024x1024 .bf16 :=
  View.canon [⟨r0_0, k0_pay3 (View.ld x0 r0_0)⟩]

/-- The column output buffer after the body, as a function of the input block x0: one store, of the whole
    buffer, of the per-row mean of p · log p over the same normalised rows. -/
def out0_2 (x0 : Vec F S1024x1024 .f32) : Vec F S1024x1 .f32 :=
  View.canon [⟨r0_1, k0_pay2 (View.ld x0 r0_0)⟩]

/-- A single store at offset (0,0) of full extent reaches every index of the 1024×1024 buffer. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Likewise for the 1024×1 buffer. -/
theorem cover0_2 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- Run on three whole staging memrefs — the input's holding x0, the outputs' holding anything — the body
    ends with the input's still holding x0 and the outputs' holding out0_1 x0 and out0_2 x0. The body is a
    straight line: load the input; load then overwrite the bf16 buffer; load then overwrite the column
    buffer. The two loads of the output buffers read values nothing uses. -/
theorem sound_kernel0 (c : Dev nD) (E : Set ℕ) (i : grid0.Coords)
    (arg0 : Memref sig .tc .vmem S1024x1024 .f32) (harg0 : arg0.IsWhole)
    (arg1 : Memref sig .tc .vmem S1024x1024 .bf16) (harg1 : arg1.IsWhole)
    (arg2 : Memref sig .tc .vmem S1024x1 .f32) (harg2 : arg2.IsWhole)
    (x0 : Vec F S1024x1024 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out0_1 x0) ∗ owns (c : Thread nD τ) arg2 fullShare (out0_2 x0)) -∗ K ⟨⟩))
      ⊢ wp frame (wpE (defs₀ (F := F)) Variants.none c none) E (cc0__stats_kernel i arg0 harg0 arg1 harg1 arg2 harg2) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- For core c: every array starts at V's contents; after the body at point t the input buffer holds
    block t and each output buffer holds its function of block t; the invariant carried round the loop is
    the one that leaves everything outside the windows untouched; full ownership, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- So the current input staging buffer holds block t when the body is called at t. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the pipeline hands the body at point t: the invariant, the (empty) debt, and the three current
    staging buffers — each at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body must hand back: the same, with each buffer at its after-the-body contents. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the input buffer holds block t, so the body's triple applies with x0 := block t; the
    invariant and the debt do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline theorem asks of the body, at every grid point: the separating products
    over the three windows written out, it is sound_body0. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.IPairFirst.lean ====
/- The second kernel region, one body call at a time.

   The grid is 8 × 8: point t = 8·ti + tj handles row tile ti against column tile tj.  The body first clears
   its 8 × 128 output block when tj = 0, then adds to it (in cell (0, 0) only) the tile's masked sum of squares.
   So a body call is one of two programs: at the first point of a row of the grid the block ends at
   "cleared, then one addition"; at every later point it ends at "what the point before left, plus one addition".
   Here each of the two is run once on arbitrary whole staging buffers; what the output buffer then holds is
   recorded as the list of the pieces the body stored into it. -/
import proofs.«105206_j85383949845128_1_alg».proof.Proof.Gen.KernelIdeal.Launch
import proofs.«105206_j85383949845128_1_alg».proof.Proof.Gen.KernelIdeal.Skeleton
import proofs.«105206_j85383949845128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: is this the first column tile of its row? -/

/-- The body's test, as it computes it from the grid coordinates: the column-tile coordinate is zero. -/
abbrev firstInRow (i : grid1.Coords) : Prop :=
  (Scalar.cmpi .ne (Scalar.extui (Scalar.cmpi .eq (BitVec.ofNat 32 (i 1).val) 0#32)) 0#32) = 1#1

/-- Over the 64 points, the test holds exactly at the multiples of 8. -/
theorem firstInRow_iff : ∀ t : Fin cfg1.N, firstInRow (grid1.coords t) ↔ t.val % 8 = 0 :=
  (by decide +kernel : ∀ t : Fin grid1.N, firstInRow (grid1.coords t) ↔ t.val % 8 = 0)

/-! ## The staging buffers the pipeline hands the body at a point -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)

/-- One staging buffer of the output window, through which its contents are stated. -/
abbrev outView : View sig .tc .vmem S8x128 .f32 := (Memref.whole cc1_stg5_0 : Memref sig .tc .vmem S8x128 .f32).view

/-! ## The body at the first point of a row of the grid -/

set_option maxHeartbeats 1000000 in
/-- With the test true, on whole staging buffers holding the five input blocks and anything in the output's,
    the body runs to its end, the inputs' buffers as they were and the output's with the body's stores written:
    the list of those stores (last first) is the witness. -/
noncomputable def pairRunFirst (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : firstInRow i)
    (x0 : Vec F S1024x1024 .bf16) (x1 : Vec F S1024x1024 .bf16) (x2 : Vec F S1x1024 .f32) (x3 : Vec F S1024x1 .i32) (x4 : Vec F S1x1024 .i32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ (∃ d, owns (c : Thread nD τ) a5 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L)) -∗ K ⟨⟩))
          ⊢ wp frame (wpE (defs₀ (F := F)) Variants.none c none) E (cc1__pairwise_kernel i a0 h0 a1 h1 a2 h2 a3 h3 a4 h4 a5 h5) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h0.eq_unread hf0; obtain rfl := h1.eq_unread hf1; obtain rfl := h2.eq_unread hf2
    obtain rfl := h3.eq_unread hf3; obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Hand

end
-- ==== Proof.IPairLater.lean ====
/- The second kernel region's body at a point that is NOT the first of its row of the grid: the output block is
   not cleared, so what the body adds lands on what the point before left there. -/
import proofs.«105206_j85383949845128_1_alg».proof.Proof.IPairFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- With the test false, on whole staging buffers holding the five input blocks and the output's holding `xo`,
    the body runs to its end, the inputs' buffers as they were and the output's with the body's stores written
    over `xo`: the list of those stores (last first) is the witness. -/
noncomputable def pairRunLater (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : ¬firstInRow i)
    (x0 : Vec F S1024x1024 .bf16) (x1 : Vec F S1024x1024 .bf16) (x2 : Vec F S1x1024 .f32) (x3 : Vec F S1024x1 .i32) (x4 : Vec F S1x1024 .i32)
    (xo : Vec F S8x128 .f32) :
    { L : List (View.Piece (Elt F) S8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare xo
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L)) -∗ K ⟨⟩))
          ⊢ wp frame (wpE (defs₀ (F := F)) Variants.none c none) E (cc1__pairwise_kernel i a0 h0 a1 h1 a2 h2 a3 h3 a4 h4 a5 h5) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Hand

end
-- ==== Proof.IPair.lean ====
/- The second kernel region over the whole grid, at a parameter V (the buffers' contents when the region is entered).

   At point t = 8·ti + tj the five input windows hold: rows of tile ti of the probabilities (window 0), rows of
   tile tj of the same array (window 1), columns of tile tj of the self terms laid out as one row (window 2), the
   labels of tile ti as a column (window 3) and of tile tj as a row (window 4).  Windows 0 and 3 move only when ti
   changes, so they are fetched at the multiples of 8 and found in place otherwise.  The output window's block
   index is (ti, 0): its staging buffer is written back once per row of the grid, after tj = 7, and in between it
   carries the running sum.  `accAt` is that running content by recursion on the point.
   Windows 0 and 1 read ONE array; the full share of that array is dealt between them, left and right. -/
import proofs.«105206_j85383949845128_1_alg».proof.Proof.IPairLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the output's staging buffer holds after each point -/

/-- After the body at position `n`: at a multiple of 8 the first-point run's stores read back (the buffer was
    cleared, then added to); otherwise the later-point run's stores over what position `n - 1` left. -/
def accAt (c : Dev nD) : (n : ℕ) → n < cfg1.N → Vec F S8x128 .f32
  | 0, hn => outView.read (Elt F) (outView.writes (Elt F) outView.junk
      (pairRunFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        (ms1_3 ⟨0, hn⟩) (hs1_3 ⟨0, hn⟩) (ms1_4 ⟨0, hn⟩) (hs1_4 ⟨0, hn⟩) (ms1_5 ⟨0, hn⟩) (hs1_5 ⟨0, hn⟩)
        ((firstInRow_iff ⟨0, hn⟩).mpr (Nat.zero_mod _))
        (iblk1 V c 0 ⟨0, hn⟩) (iblk1 V c 1 ⟨0, hn⟩) (iblk1 V c 2 ⟨0, hn⟩) (iblk1 V c 3 ⟨0, hn⟩) (iblk1 V c 4 ⟨0, hn⟩)).1)
  | n + 1, hn =>
    if h0 : (n + 1) % 8 = 0 then
      outView.read (Elt F) (outView.writes (Elt F) outView.junk
        (pairRunFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
          (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩)
          ((firstInRow_iff ⟨n + 1, hn⟩).mpr h0)
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)).1)
    else
      outView.read (Elt F) (outView.writes (Elt F) outView.junk
        (pairRunLater c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
          (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩)
          (fun h => h0 ((firstInRow_iff ⟨n + 1, hn⟩).mp h))
          (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
          (accAt c n (Nat.lt_of_succ_lt hn))).1)

/-- `accAt` at a multiple of 8. -/
theorem accAt_first (c : Dev nD) (t : Fin cfg1.N) (h0 : t.val % 8 = 0) :
    accAt V c t.val t.isLt = outView.read (Elt F) (outView.writes (Elt F) outView.junk
      (pairRunFirst c (grid1.coords t) (ms1_0 t) (hs1_0 t) (ms1_1 t) (hs1_1 t) (ms1_2 t) (hs1_2 t) (ms1_3 t) (hs1_3 t) (ms1_4 t) (hs1_4 t) (ms1_5 t) (hs1_5 t)
        ((firstInRow_iff t).mpr h0) (iblk1 V c 0 t) (iblk1 V c 1 t) (iblk1 V c 2 t) (iblk1 V c 3 t) (iblk1 V c 4 t)).1) := by
  obtain ⟨n, hn⟩ := t
  cases n with
  | zero => exact rfl
  | succ n => exact (dif_pos h0).trans rfl

/-- `accAt` elsewhere: over what the point before left. -/
theorem accAt_later (c : Dev nD) (t : Fin cfg1.N) (h0 : ¬t.val % 8 = 0) :
    accAt V c t.val t.isLt = outView.read (Elt F) (outView.writes (Elt F) outView.junk
      (pairRunLater c (grid1.coords t) (ms1_0 t) (hs1_0 t) (ms1_1 t) (hs1_1 t) (ms1_2 t) (hs1_2 t) (ms1_3 t) (hs1_3 t) (ms1_4 t) (hs1_4 t) (ms1_5 t) (hs1_5 t)
        (fun h => h0 ((firstInRow_iff t).mp h)) (iblk1 V c 0 t) (iblk1 V c 1 t) (iblk1 V c 2 t) (iblk1 V c 3 t) (iblk1 V c 4 t)
        (accAt V c (t.val - 1) (Nat.lt_of_le_of_lt (Nat.sub_le _ _) t.isLt))).1) := by
  obtain ⟨n, hn⟩ := t
  cases n with
  | zero => exact (by exfalso; (try dsimp only at h0); exact absurd (Nat.zero_mod _) h0)
  | succ n => exact (dif_neg h0).trans rfl

/-- Either run's stores cover the 8 × 128 block. -/
theorem cover_first (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : firstInRow i) (x0 : Vec F S1024x1024 .bf16) (x1 : Vec F S1024x1024 .bf16) (x2 : Vec F S1x1024 .f32) (x3 : Vec F S1024x1 .i32) (x4 : Vec F S1x1024 .i32)
    (y : S8x128.Idx) : ∃ pc ∈ (pairRunFirst c i a0 h0 a1 h1 a2 h2 a3 h3 a4 h4 a5 h5 hc x0 x1 x2 x3 x4).1, y ∈ pc.1.set :=
  View.cover_of_tiledL (pairRunFirst c i a0 h0 a1 h1 a2 h2 a3 h3 a4 h4 a5 h5 hc x0 x1 x2 x3 x4).1 S8x128.size (by sl_kernel_rfl) y

theorem cover_later (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : ¬firstInRow i) (x0 : Vec F S1024x1024 .bf16) (x1 : Vec F S1024x1024 .bf16) (x2 : Vec F S1x1024 .f32) (x3 : Vec F S1024x1 .i32) (x4 : Vec F S1x1024 .i32)
    (xo : Vec F S8x128 .f32)
    (y : S8x128.Idx) : ∃ pc ∈ (pairRunLater c i a0 h0 a1 h1 a2 h2 a3 h3 a4 h4 a5 h5 hc x0 x1 x2 x3 x4 xo).1, y ∈ pc.1.set :=
  View.cover_of_tiledL (pairRunLater c i a0 h0 a1 h1 a2 h2 a3 h3 a4 h4 a5 h5 hc x0 x1 x2 x3 x4 xo).1 S8x128.size (by sl_kernel_rfl) y

/-! ## The pipeline's proof data -/

/-- The proof data of the second pipeline on core `c`: the arrays as the region finds them; after the body each
    input's buffer at its block and the output's at the running sum; the invariant is the scoped rest and the
    generator register, untouched; nothing owed; the array read twice held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt V c t.val t.isLt
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt V c t.val t.isLt := by dsimp only [dat1]

/-- An input window's staging buffer holds its block at every point, whether the pipeline fetched it there or
    found it in place (then the block index did not move): the body leaves inputs alone. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Away from the multiples of 8 the output's staging buffer holds what the body left at the point before:
    it is written back only after the last column tile of a row. -/
theorem before1_5_later (c : Dev nD) (t : Fin cfg1.N) (h0 : ¬t.val % 8 = 0) (d) :
    (dat1 V c).before 5 t d = accAt V c (t.val - 1) (Nat.lt_of_le_of_lt (Nat.sub_le _ _) t.isLt) := by
  have hN : t.val < 64 := lt_of_lt_of_eq t.isLt (show cfg1.N = 64 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' buffers hold their blocks; the closed form of the test says which of the
    two runs applies; away from the multiples of 8 the output's buffer holds the running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 8 = 0
  · rw [accAt_first V c t h0]
    iintro ⟨HΦ, Ho, ⟨%d0, H0⟩, ⟨%d1, H1⟩, ⟨%d2, H2⟩, ⟨%d3, H3⟩, ⟨%d4, H4⟩, ⟨%d5, H5⟩⟩
    iapply ((pairRunFirst c (grid1.coords t) _ _ _ _ _ _ _ _ _ _ _ _ ((firstInRow_iff t).mpr h0)
      (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_first c _ _ _ _ _ _ _ _ _ _ _ _ _ _ _ _ _ _ _)
  · rw [accAt_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply ((pairRunLater c (grid1.coords t) _ _ _ _ _ _ _ _ _ _ _ _ (fun h => h0 ((firstInRow_iff t).mp h))
      (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover_later c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.IRunA.lean ====
/- The whole program as four segments: the first kernel region, three re-layouts on the host, the second kernel
   region, and the host's final sum and division.

   Between segments a core holds every unscoped buffer whole at known contents.  Those contents are a fold from
   the launch memory: a kernel region replaces each of its output arrays by what its write-backs leave (and
   touches nothing else), a host stretch applies its operations.  Beside the buffers ride the generator register
   (the kernels' invariant takes it in and hands it back) and the fact that the core owes no other core anything. -/
import proofs.«105206_j85383949845128_1_alg».proof.Proof.IStats
import proofs.«105206_j85383949845128_1_alg».proof.Proof.IPair

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- The same read at the TensorCore's references: what the first region's proof data take. -/
abbrev X0 : (c : Dev nD) → (b : Ref sig .tc) → Buf (Elt F) ((c : Thread nD τ).loc b) := fun c b => W0 m c b

/-- What the first region leaves in its two output arrays: the write-backs of all 8 points folded. -/
def probsOut (c : Dev nD) : Buf (Elt F) ((c : Thread nD τ).loc main_v0_0) := (dat0 (X0 m) c).arrAt 1 cfg0.N
def selfOut (c : Dev nD) : Buf (Elt F) ((c : Thread nD τ).loc main_v0_1) := (dat0 (X0 m) c).arrAt 2 cfg0.N

/-- After the first region: its two output arrays replaced, everything else as launched. -/
def W1 (c : Dev nD) : Valuation τ sig (Elt F) :=
  Function.update (Function.update (W0 m c) main_v0_0 (probsOut m c)) main_v0_1 (selfOut m c)
/-- After the three re-layouts. -/
abbrev W2 (c : Dev nD) : Valuation τ sig (Elt F) := StableHlo.after hostOps1 (W1 m c)
abbrev X2 : (c : Dev nD) → (b : Ref sig .tc) → Buf (Elt F) ((c : Thread nD τ).loc b) := fun c b => W2 m c b

/-- What the second region leaves in its output array. -/
def sumsOut (c : Dev nD) : Buf (Elt F) ((c : Thread nD τ).loc main_v4) := (dat1 (X2 m) c).arrAt 5 cfg1.N

/-- After the second region: its output array replaced. -/
def W3 (c : Dev nD) : Valuation τ sig (Elt F) := Function.update (W2 m c) main_v4 (sumsOut m c)
/-- After the host's sum and division: the end. -/
abbrev W4 (c : Dev nD) : Valuation τ sig (Elt F) := StableHlo.after hostOps2 (W3 m c)

theorem ne_ref {a b : Ref sig .tc} (h : a ≠ b) : (Proc.devRef .tc a : DevRef τ sig) ≠ Proc.devRef .tc b :=
  StableHlo.devRef_ne_of_ne h

theorem W1_probs (c : Dev nD) : W1 m c main_v0_0 = probsOut m c := by
  unfold W1; rw [Function.update_of_ne (ne_ref (by decide)), Function.update_self]
theorem W1_self (c : Dev nD) : W1 m c main_v0_1 = selfOut m c := by
  unfold W1; rw [Function.update_self]
theorem W1_other (c : Dev nD) (b : Ref sig .tc) (h0 : b ≠ main_v0_0) (h1 : b ≠ main_v0_1) : W1 m c b = W0 m c b := by
  unfold W1; rw [Function.update_of_ne (ne_ref h1), Function.update_of_ne (ne_ref h0)]
theorem W3_sums (c : Dev nD) : W3 m c main_v4 = sumsOut m c := by
  unfold W3; rw [Function.update_self]
theorem W3_other (c : Dev nD) (b : Ref sig .tc) (h : b ≠ main_v4) : W3 m c b = W2 m c b := by
  unfold W3; rw [Function.update_of_ne (ne_ref h)]

/-! ## The proof data family, the riders, the host segments -/

/-- No pallas_call has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (X0 m) c
  | ⟨1, _⟩ => fun c => dat1 (X2 m) c

abbrev 𝒱₀ : Variants := Variants.none
abbrev L : GSem nD τ sig → Finset Unit := fun _ => ∅
abbrev lv : GSem nD τ sig → Unit → ℕ := fun _ _ => 0

/-- Nothing owed. -/
abbrev Owes0 (c : Dev nD) : sProp 𝕄 := iprop(∃ W, owes (c : Thread nD τ) (0 : CellTallies nD τ sig Unit) W)
/-- The generator register at some state, and nothing owed. -/
abbrev R (c : Dev nD) : sProp 𝕄 := iprop((∃ r, prngReg c r) ∗ Owes0 c)

/-- A host stretch as a segment over all unscoped buffers from contents `W`, `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rd : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

/-- Each of the first region's arrays ends at what the boundary after it says. -/
theorem exit0_arr (c : Dev nD) (w : Fin cfg0.W) : (dat0 (X0 m) c).arrAt w cfg0.N = W1 m c (Pipeline.arrRef spec0 w) := by
  match w with
  | ⟨0, _⟩ => exact ((dat0 (X0 m) c).arrAt_in 0 rfl _).trans ((A_eq0 (X0 m) c 0).trans (W1_other m c main_arg0 (by decide) (by decide)).symm)
  | ⟨1, _⟩ => exact (W1_probs m c).symm
  | ⟨2, _⟩ => exact (W1_self m c).symm
theorem exit0_rest (c : Dev nD) : ∀ b : Ref sig .tc, b ∉ Finset.univ.image (Pipeline.arrRef spec0) → W1 m c b = W0 m c b := fun b hb =>
  W1_other m c b (fun e => hb (Finset.mem_image.mpr ⟨1, Finset.mem_univ _, e.symm⟩)) (fun e => hb (Finset.mem_image.mpr ⟨2, Finset.mem_univ _, e.symm⟩))

set_option backward.isDefEq.respectTransparency.types false in
/-- The first region, entered from the launch contents and left at `W1`: its three arrays are split out of the
    unscoped buffers and put back at their exit contents; the generator register goes into the kernel's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X0 m c) (fun b => W1 m c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IRunB.lean ====
/- The second kernel region as a segment.  Two of its input windows read ONE array (the probabilities), so the
   buffers behind its arrays are five, not six: at entry the probabilities' buffer, held whole, is dealt to the
   two windows as a left and a right half share; at exit the two halves, which still hold the same contents
   (inputs are never written), are joined again.  Only the output array's contents change. -/
import proofs.«105206_j85383949845128_1_alg».proof.Proof.IRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers behind the second region's arrays, and the windows' shares of them -/

section Shares

variable (c : Dev nD) (Vd : (c : Dev nD) → (b : Ref sig .tc) → Buf (Elt F) ((c : Thread nD τ).loc b))
  (V : (b : Ref sig .tc) → Buf (Elt F) ((c : Thread nD τ).loc b))
  (G : (w : Fin cfg1.W) → Buf (Elt F) ((cfg1.win w).arr.view.loc (c : Thread nD τ)))

/-- The windows' arrays, each a whole buffer, at the windows' shares. -/
theorem arrays1_whole : ((dat1 Vd c).arrays G : sProp 𝕄)
    = bigSep Finset.univ fun w : Fin cfg1.W => (((c : Thread nD τ).loc (Pipeline.arrRef spec1 w)) ↦{(dat1 Vd c).share w} G w : sProp 𝕄) := by
  unfold Pipeline.Dat.arrays
  exact bigSep_congr fun w _ => by rw [(arr_whole1 w).set_eq_univ]

/-- The five buffers, one by one. -/
theorem arrBufs1_list : (Pipeline.arrBufs (Ix := Unit) (Name := ℕ) (U := UR sig nD τ) (Lvl := ℕ) spec1 c V : sProp 𝕄)
    = iprop((((c : Thread nD τ).loc main_v0_0) ↦{fullShare} V main_v0_0) ∗ (((c : Thread nD τ).loc main_v1) ↦{fullShare} V main_v1)
        ∗ (((c : Thread nD τ).loc main_v2) ↦{fullShare} V main_v2) ∗ (((c : Thread nD τ).loc main_v3) ↦{fullShare} V main_v3)
        ∗ (((c : Thread nD τ).loc main_v4) ↦{fullShare} V main_v4)) := by
  unfold Pipeline.arrBufs
  exact bigSep_eq_bigSepL_of_eq [main_v0_0, main_v1, main_v2, main_v3, main_v4] (by decide) (by decide) _

/-- ENTRY: the five buffers at contents `V` are the six windows' arrays at those contents, the probabilities'
    buffer dealt left and right. -/
theorem split1 (hG : ∀ w, G w = V (Pipeline.arrRef spec1 w)) :
    (Pipeline.arrBufs (Ix := Unit) (Name := ℕ) (U := UR sig nD τ) (Lvl := ℕ) spec1 c V : sProp 𝕄) ⊢ (dat1 Vd c).arrays G := by
  rw [arrays1_whole, arrBufs1_list, bigSep_W1, hG 0, hG 1, hG 2, hG 3, hG 4, hG 5]
  iintro ⟨Ha, H1, H2, H3, H4⟩
  ihave Hs := (pointsTo_share (PosShare.mem_left_op_right fullShare)).1 $$ Ha
  icases Hs with ⟨Hl, Hr⟩
  isplitl [Hl]; · iexact Hl
  isplitl [Hr]; · iexact Hr
  isplitl [H1]; · iexact H1
  isplitl [H2]; · iexact H2
  isplitl [H3]; · iexact H3
  iexact H4

/-- EXIT: the same, backwards. -/
theorem join1 (hG : ∀ w, G w = V (Pipeline.arrRef spec1 w)) :
    ((dat1 Vd c).arrays G : sProp 𝕄) ⊢ Pipeline.arrBufs (Ix := Unit) (Name := ℕ) (U := UR sig nD τ) (Lvl := ℕ) spec1 c V := by
  rw [arrays1_whole, arrBufs1_list, bigSep_W1, hG 0, hG 1, hG 2, hG 3, hG 4, hG 5]
  iintro ⟨Hl, Hr, H1, H2, H3, H4⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  iexact H4

end Shares

variable (m : (ℓ : Loc nD τ sig) → Buf (Elt F) ℓ) (ρ : Dev nD → PrngReg)

/-- Each of the second region's arrays ends at what the boundary after it says: the inputs as entered, the output
    at its folded write-backs. -/
theorem exit1_arr (c : Dev nD) (w : Fin cfg1.W) : (dat1 (X2 m) c).arrAt w cfg1.N = W3 m c (Pipeline.arrRef spec1 w) := by
  match w with
  | ⟨0, _⟩ => exact ((dat1 (X2 m) c).arrAt_in 0 rfl _).trans ((A_eq1 (X2 m) c 0).trans (W3_other m c main_v0_0 (by decide)).symm)
  | ⟨1, _⟩ => exact ((dat1 (X2 m) c).arrAt_in 1 rfl _).trans ((A_eq1 (X2 m) c 1).trans (W3_other m c main_v0_0 (by decide)).symm)
  | ⟨2, _⟩ => exact ((dat1 (X2 m) c).arrAt_in 2 rfl _).trans ((A_eq1 (X2 m) c 2).trans (W3_other m c main_v1 (by decide)).symm)
  | ⟨3, _⟩ => exact ((dat1 (X2 m) c).arrAt_in 3 rfl _).trans ((A_eq1 (X2 m) c 3).trans (W3_other m c main_v2 (by decide)).symm)
  | ⟨4, _⟩ => exact ((dat1 (X2 m) c).arrAt_in 4 rfl _).trans ((A_eq1 (X2 m) c 4).trans (W3_other m c main_v3 (by decide)).symm)
  | ⟨5, _⟩ => exact (W3_sums m c).symm

/-- The buffers that are no array of the second region are not touched by it. -/
theorem rest1_eq (c : Dev nD) :
    (Pipeline.unscopedRest (Ix := Unit) (Name := ℕ) (U := UR sig nD τ) (Lvl := ℕ) spec1 c (X2 m c) : sProp 𝕄)
      = Pipeline.unscopedRest (Ix := Unit) (Name := ℕ) (U := UR sig nD τ) (Lvl := ℕ) spec1 c (fun b => W3 m c b) := by
  unfold Pipeline.unscopedRest
  refine bigSep_congr fun b hb => ?_
  have hne : b ≠ main_v4 := fun e => (Finset.mem_sdiff.mp hb).2 (Finset.mem_image.mpr ⟨5, Finset.mem_univ _, e.symm⟩)
  exact congrArg (fun v => (((c : Thread nD τ).loc b) ↦{fullShare} v : sProp 𝕄)) (W3_other m c b hne).symm

set_option backward.isDefEq.respectTransparency.types false in
/-- The second region, entered from `W2` and left at `W3` with nothing owed (the generator register is let go:
    nothing after the region needs it). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ Owes0 c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hub : (StableHlo.held (c : Thread nD τ) (Pipeline.ucRefs τ sig) (W2 m c) : sProp 𝕄)
        = iprop(Pipeline.arrBufs (Ix := Unit) (Name := ℕ) (U := UR sig nD τ) (Lvl := ℕ) spec1 c (X2 m c)
            ∗ Pipeline.unscopedRest (Ix := Unit) (Name := ℕ) (U := UR sig nD τ) (Lvl := ℕ) spec1 c (X2 m c)) := by
      rw [← Pipeline.unscopedBufs_held c (W2 m c)]
      exact Pipeline.unscopedBufs_split₀ (Ix := Unit) (Name := ℕ) (U := UR sig nD τ) (Lvl := ℕ) (Pipeline.pin (pcfgs (F := F)) adm) 1 winFacts₀1.arr_unscoped c (X2 m c)
    have hsplit : (StableHlo.held (c : Thread nD τ) (Pipeline.ucRefs τ sig) (W2 m c) : sProp 𝕄)
        ⊢ iprop(Pipeline.arrBufs (Ix := Unit) (Name := ℕ) (U := UR sig nD τ) (Lvl := ℕ) spec1 c (X2 m c)
            ∗ Pipeline.unscopedRest (Ix := Unit) (Name := ℕ) (U := UR sig nD τ) (Lvl := ℕ) spec1 c (X2 m c)) := by
      rw [hub]
    iintro ⟨⟨Hub, Hp, HO⟩, -, -⟩
    ihave H := hsplit $$ Hub
    icases H with ⟨Ha, Hrest⟩
    imodintro
    isplitl [Ha]
    · iapply (split1 c (X2 m) (X2 m c) ((pdats m 1 c).arrAt · 0) fun _ => rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W3 m c) : sProp 𝕄)
        = iprop(Pipeline.arrBufs (Ix := Unit) (Name := ℕ) (U := UR sig nD τ) (Lvl := ℕ) spec1 c (fun b => W3 m c b)
            ∗ Pipeline.unscopedRest (Ix := Unit) (Name := ℕ) (U := UR sig nD τ) (Lvl := ℕ) spec1 c (fun b => W3 m c b)) := by
      rw [← Pipeline.unscopedBufs_held c (W3 m c)]
      exact Pipeline.unscopedBufs_split₀ (Ix := Unit) (Name := ℕ) (U := UR sig nD τ) (Lvl := ℕ) (Pipeline.pin (pcfgs (F := F)) adm) 1 winFacts₀1.arr_unscoped c (fun b => W3 m c b)
    have hjoin : iprop(Pipeline.arrBufs (Ix := Unit) (Name := ℕ) (U := UR sig nD τ) (Lvl := ℕ) spec1 c (fun b => W3 m c b)
            ∗ Pipeline.unscopedRest (Ix := Unit) (Name := ℕ) (U := UR sig nD τ) (Lvl := ℕ) spec1 c (X2 m c))
        ⊢ (StableHlo.held (c : Thread nD τ) (Pipeline.ucRefs τ sig) (W3 m c) : sProp 𝕄) := by
      rw [hub, rest1_eq m c]
    iintro ⟨Ha, HO, -, Hrest⟩
    imodintro
    isplitl [Ha Hrest]
    · iapply hjoin
      isplitl [Ha]
      · iapply (join1 c (X2 m) (fun b => W3 m c b) ((pdats m 1 c).arrAt · cfg1.N) (exit1_arr m c))
        iexact Ha
      iexact Hrest
    unfold Pipeline.Dat.owesAt Pipeline.owesWithin
    icases HO with ⟨%W, -, HO⟩; iexists W; iexact HO

end Cert.KernelIdeal.Hand

end
-- ==== Proof.IRunC.lean ====
/- The program's run: its four segments in order, launched from any memory with zero counters.  Every weakly fair
   execution terminates, and in the final memory every unscoped buffer holds the last boundary's contents `W4` — in
   particular the two argument arrays hold what they were launched with (no host operation writes them and the
   regions only read them), and the result holds the host's sum and division applied to what the second region left. -/
import proofs.«105206_j85383949845128_1_alg».proof.Proof.IRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four segments. -/
abbrev segs : List (Pipeline.Seg (pcfgs (F := F)) adm (pdats m) () defs₀ 𝒱₀ L lv) :=
  [ .region (reg0 m),
    .host (hseg hostOps1 hostOps1_sub hostOps1_fresh (W1 m) R),
    .region (reg1 m),
    .host (hseg hostOps2 hostOps2_sub hostOps2_fresh (W3 m) Owes0) ]

/-- @main is the run of the segments. -/
theorem main_run (c : Dev nD) : main (F := F) c = Pipeline.Seg.run (segs m) := (main_chain c).trans (by chain_rfl)

/-- The last thread state: every unscoped buffer at `W4`. -/
abbrev Tend (c : Dev nD) : sProp 𝕄 := StableHlo.held (c : Thread nD τ) (Pipeline.ucRefs τ sig) (W4 m c)

set_option backward.isDefEq.respectTransparency.types false in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold Tend StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

theorem W4_arg0 (c : Dev nD) : W4 m c main_arg0 = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_other m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_other m c main_arg0 (by decide) (by decide)
    _ = m ((c : Thread nD τ).loc main_arg0) := rfl

theorem W4_arg1 (c : Dev nD) : W4 m c main_arg1 = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_other m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := W1_other m c main_arg1 (by decide) (by decide)
    _ = m ((c : Thread nD τ).loc main_arg1) := rfl

/-- THE FRAME: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg0 m c), (h c _ (mem_uc main_arg1 (by decide))).trans (W4_arg1 m c)⟩)
    (run_all m ρ)

end Cert.KernelIdeal.Hand

end
-- ==== Proof.IPairSteps.lean ====
/- What one body call of the second region leaves in the output block, as a function.

   The body computes, from the five input blocks, the tile's masked sum of squares, places it in cell (0, 0) of an
   8 × 128 block of zeros, and adds that block to the output buffer's contents: `stepOf` of the blocks and of
   what the buffer held.  At the first point of a row of the grid the buffer was just cleared, so it held the
   zero block; at a later point it holds what the point before left. -/
import proofs.«105206_j85383949845128_1_alg».proof.Proof.IPair
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One accumulation step: the block's previous contents plus this tile's contribution in cell (0, 0). -/
def stepOf (i : grid1.Coords) (x0 : Vec F S1024x1024 .bf16) (x1 : Vec F S1024x1024 .bf16) (x2 : Vec F S1x1024 .f32) (x3 : Vec F S1024x1 .i32) (x4 : Vec F S1x1024 .i32) (prev : Vec F S8x128 .f32) : Vec F S8x128 .f32 :=
  k1_pay1 (k1_pay3 x0 x1 x2) (k1_pay4 i x0 x1 x2 x3 x4) prev

theorem offs_zero : (![0, 0] : Fin 2 → Nat) = fun _ => 0 := by
  funext a; match a with | ⟨0, _⟩ => rfl | ⟨1, _⟩ => rfl

/-- At the first point of a row of the grid: one step from the cleared block. -/
theorem first_step (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : firstInRow i) (x0 : Vec F S1024x1024 .bf16) (x1 : Vec F S1024x1024 .bf16) (x2 : Vec F S1x1024 .f32) (x3 : Vec F S1024x1 .i32) (x4 : Vec F S1x1024 .i32) :
    outView.read (Elt F) (outView.writes (Elt F) outView.junk (pairRunFirst c i a0 h0 a1 h1 a2 h2 a3 h3 a4 h4 a5 h5 hc x0 x1 x2 x3 x4).1)
      = stepOf i x0 x1 x2 x3 x4 (k1_pay2 (F := F)) := by
  rw [View.read_writes_eq_canon _ _ _ (cover_first c i a0 h0 a1 h1 a2 h2 a3 h3 a4 h4 a5 h5 hc x0 x1 x2 x3 x4)]
  unfold pairRunFirst
  dsimp only
  sl_unfold_words
  refine (View.canon_cons_unit_zero offs_zero _ _ _).trans ?_
  simp only [View.readAt_eq_ld, Memref.IsWhole.read_unread, View.ld_unit_zero (S := S1024x1024) offs_zero,
    View.ld_unit_zero (S := S1x1024) offs_zero, View.ld_unit_zero (S := S1024x1) offs_zero]
  have key := congrArg (k1_pay1 (k1_pay3 x0 x1 x2) (k1_pay4 i x0 x1 x2 x3 x4))
    (View.readCov_unit_zero (S := S8x128) a5.view offs_zero inb_S8x128_S8x128_0_0 (k1_pay2 (F := F)))
  unfold stepOf
  exact key

/-- At a later point: one step from what the buffer held. -/
theorem later_step (c : Dev nD) (i : grid1.Coords)
    (a0 : Memref sig .tc .vmem S1024x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S1024x1 .i32) (h3 : a3.IsWhole)
    (a4 : Memref sig .tc .vmem S1x1024 .i32) (h4 : a4.IsWhole) (a5 : Memref sig .tc .vmem S8x128 .f32) (h5 : a5.IsWhole)
    (hc : ¬firstInRow i) (x0 : Vec F S1024x1024 .bf16) (x1 : Vec F S1024x1024 .bf16) (x2 : Vec F S1x1024 .f32) (x3 : Vec F S1024x1 .i32) (x4 : Vec F S1x1024 .i32) (xo : Vec F S8x128 .f32) :
    outView.read (Elt F) (outView.writes (Elt F) outView.junk (pairRunLater c i a0 h0 a1 h1 a2 h2 a3 h3 a4 h4 a5 h5 hc x0 x1 x2 x3 x4 xo).1)
      = stepOf i x0 x1 x2 x3 x4 xo := by
  rw [View.read_writes_eq_canon _ _ _ (cover_later c i a0 h0 a1 h1 a2 h2 a3 h3 a4 h4 a5 h5 hc x0 x1 x2 x3 x4 xo)]
  unfold pairRunLater
  dsimp only
  sl_unfold_words
  refine (View.canon_unit_zero offs_zero _ _).trans ?_
  simp only [View.readAt_eq_ld, Memref.IsWhole.read_unread, View.ld_unit_zero (S := S1024x1024) offs_zero,
    View.ld_unit_zero (S := S1x1024) offs_zero, View.ld_unit_zero (S := S1024x1) offs_zero, View.ld_unit_zero (S := S8x128) offs_zero]
  rfl

section Region

variable (V : (c : Dev nD) → (b : Ref sig .tc) → Buf (Elt F) ((c : Thread nD τ).loc b))

/-- The running content at a multiple of 8. -/
theorem accAt_first_eq (c : Dev nD) (t : Fin cfg1.N) (h0 : t.val % 8 = 0) :
    accAt V c t.val t.isLt = stepOf (grid1.coords t) (iblk1 V c 0 t) (iblk1 V c 1 t) (iblk1 V c 2 t) (iblk1 V c 3 t) (iblk1 V c 4 t) (k1_pay2 (F := F)) :=
  (accAt_first V c t h0).trans (first_step c (grid1.coords t) _ _ _ _ _ _ _ _ _ _ _ _ _ _ _ _ _ _)

/-- The running content elsewhere. -/
theorem accAt_later_eq (c : Dev nD) (t : Fin cfg1.N) (h0 : ¬t.val % 8 = 0) :
    accAt V c t.val t.isLt = stepOf (grid1.coords t) (iblk1 V c 0 t) (iblk1 V c 1 t) (iblk1 V c 2 t) (iblk1 V c 3 t) (iblk1 V c 4 t)
      (accAt V c (t.val - 1) (Nat.lt_of_le_of_lt (Nat.sub_le _ _) t.isLt)) :=
  (accAt_later V c t h0).trans (later_step c (grid1.coords t) _ _ _ _ _ _ _ _ _ _ _ _ _ _ _ _ _ _ _)

end Region

end Cert.KernelIdeal.Hand

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibRowSoftmax.lean ====
/- Row maxima and the softmax of a row, as a kernel and as a host program compute them, read at an index.

   For a row r of finitely many extended reals and a starting value z, `maxFrom z r` is the largest of z and the
   entries of r, and `softmaxFrom z r j = exp (r j - maxFrom z r) / Σ_k exp (r k - maxFrom z r)`.
   A kernel takes the maximum (and the sum) of every row of an [a, b] matrix as a vector of length a, re-lays
   it as an [a, 1] column and spreads the column over the row; a host program reduces the last axis of an
   [n, a, b] stack.  Read at an index, each is `maxFrom` (or the plain sum) of that row, so the kernel's
   subtract-exponentiate-normalise chain is `softmaxFrom` of the row, entry by entry. -/
import Idealize.ShloMosaic.Lib.Pipeline.Value
import Idealize.ShloMosaic.Lib.ValueIdx
import Idealize.ShloMosaic.PureOps.Ideal.Laws
import proofs.«105206_j85383949845128_1_alg».proof.Proof.LibColumn

noncomputable section

namespace Cert.LibRowSoftmax

open Idealize.ShloMosaic Idealize.ShloMosaic.ValueIdx

/-- The largest of `z` and the entries of a row. -/
def maxFrom {b : ℕ} (z : EReal) (r : Fin b → EReal) : EReal := (Finset.univ : Finset (Fin b)).fold max z r

/-- The starting value is below the maximum taken from it. -/
theorem le_maxFrom {b : ℕ} (z : EReal) (r : Fin b → EReal) : z ≤ maxFrom z r :=
  (Finset.le_fold_max z).mpr (Or.inl le_rfl)

/-- Taking the larger of the starting value and the maximum taken from it changes nothing. -/
theorem max_maxFrom {b : ℕ} (z : EReal) (r : Fin b → EReal) : max z (maxFrom z r) = maxFrom z r :=
  max_eq_right (le_maxFrom z r)

/-- The softmax of a row, its entries centred at their maximum taken from `z`. -/
def softmaxFrom {b : ℕ} (z : EReal) (r : Fin b → EReal) (j : Fin b) : EReal :=
  Ideal.div (Ideal.exp (r j - maxFrom z r)) (∑ k : Fin b, Ideal.exp (r k - maxFrom z r))

/-! ## A kernel's reductions along the rows of an [a, b] matrix -/

/-- Row p with column k put back is entry (p, k). -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The maximum over each row, at row p: the largest of the accumulator's value and the row's entries. -/
theorem multiReduction_max_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p) = maxFrom (Ideal.ofBits φ acc) (fun k => v (ix2 p k)) :=
  (Ideal.multiReduction_maximumf_single v acc h hφ hacc (ix1 p)).trans
    (congrArg (fun f => (Finset.univ : Finset (Fin b)).fold max (Ideal.ofBits φ acc) f)
      (funext fun k => congrArg v (lift_row h p k)))

/-- The sum over each row, at row p. -/
theorem multiReduction_add_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The kernel's chain on an f32 [a, b] matrix: the row maxima from -inf as a column spread over the rows,
    subtracted; the exponential; the row sums from zero likewise; the quotient. -/
def rowSoftmax {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  divf
    (exp (subf e (broadcastTo ⟨2, ![a, b]⟩ (shapeCast ⟨2, ![a, 1]⟩
      (multiReduction .maximumf [1] ⟨1, ![a]⟩ e 0xFF800000#32 hR (.inl rfl) rfl) hC) hB)))
    (broadcastTo ⟨2, ![a, b]⟩ (shapeCast ⟨2, ![a, 1]⟩
      (multiReduction .add [1] ⟨1, ![a]⟩
        (exp (subf e (broadcastTo ⟨2, ![a, b]⟩ (shapeCast ⟨2, ![a, 1]⟩
          (multiReduction .maximumf [1] ⟨1, ![a]⟩ e 0xFF800000#32 hR (.inl rfl) rfl) hC) hB)))
        0x00000000#32 hR (.inl rfl) rfl) hC) hB)

/-- Entry (p, c) of the kernel's chain is the softmax of row p at c. -/
theorem rowSoftmax_apply {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (p : Fin a) (c : Fin b) :
    rowSoftmax e hR hC hB (ix2 p c) = softmaxFrom (Ideal.ofBits .f32 0xFF800000#32) (fun k => e (ix2 p k)) c := by
  have hm : ∀ c' : Fin b, broadcastTo ⟨2, ![a, b]⟩ (shapeCast ⟨2, ![a, 1]⟩
      (multiReduction .maximumf [1] ⟨1, ![a]⟩ e 0xFF800000#32 hR (.inl rfl) rfl) hC) hB (ix2 p c')
      = maxFrom (Ideal.ofBits .f32 0xFF800000#32) (fun k => e (ix2 p k)) := fun c' =>
    (Cert.LibColumn.broadcastTo_shapeCast_column_apply _ hC hB p c').trans (multiReduction_max_row e _ hR _ _ p)
  have hs : ∀ (u : FVec Ideal ⟨2, ![a, b]⟩ .f32), broadcastTo ⟨2, ![a, b]⟩ (shapeCast ⟨2, ![a, 1]⟩
      (multiReduction .add [1] ⟨1, ![a]⟩ u 0x00000000#32 hR (.inl rfl) rfl) hC) hB (ix2 p c)
      = ∑ k : Fin b, u (ix2 p k) := fun u =>
    (Cert.LibColumn.broadcastTo_shapeCast_column_apply _ hC hB p c).trans (multiReduction_add_row u _ hR _ _ p)
  unfold rowSoftmax softmaxFrom
  refine (divf_apply _ _ _).trans ?_
  rw [hs]
  simp only [exp, subf, Ideal.exp_def, Ideal.subf_def, hm]

/-! ## A host program's reduction along the last axis of an [n, a, b] stack -/

/-- Row (d, p) with position k put back is entry (d, p, k). -/
theorem lift_row3 {n a b : ℕ} (h : (⟨3, ![n, a, b]⟩ : Shape).Reduces [2] ⟨2, ![n, a]⟩) (d : Fin n) (p : Fin a) (k : Fin b) :
    h.lift (ix2 d p) k = ix3 d p k :=
  funext fun c => Fin.ext (by match c with | ⟨0, _⟩ => rfl | ⟨1, _⟩ => rfl | ⟨2, _⟩ => rfl)

/-- The host's maximum along the last axis, at row (d, p): the largest of the initial value and the row's entries. -/
theorem hostReduce_max_row3 {n a b : ℕ} {u : Shape} (x : (⟨3, ![n, a, b]⟩ : Shape).Idx → Ideal .f32) (init : u.Idx → Ideal .f32)
    (h' : (⟨3, ![n, a, b]⟩ : Shape).ReducesTo [2] ⟨2, ![n, a]⟩) (h : (⟨3, ![n, a, b]⟩ : Shape).Reduces [2] ⟨2, ![n, a]⟩)
    (hu : 0 < u.numel) (d : Fin n) (p : Fin a) :
    Host.reduce FloatOps.maximumf x init h' hu (ix2 d p) = maxFrom (init (Shape.Idx.first hu)) (fun k => x (ix3 d p k)) :=
  (Host.reduce_eq_fold_single FloatOps.maximumf x init h' h hu (ix2 d p)).trans
    (congrArg (fun f => (Finset.univ : Finset (Fin b)).fold max (init (Shape.Idx.first hu)) f)
      (funext fun k => congrArg x (lift_row3 h d p k)))

end Cert.LibRowSoftmax

end
-- ==== Proof.Spec.lean ====
/- The loss both programs compute, as one function of the logits and the labels.

   For logits x (8192 rows of 1024) and integer labels, every row is scaled by 1/4 and passed through the
   softmax of the row (centred at the row's maximum taken from -inf), and a small constant is added:
   P i k = softmax(x i / 4) k + eps.  The self term of row j is s j = (Σ_k P j k · log P j k) / 1024, the cross
   term of rows i, j is c i j = (Σ_k P i k · P j k) / 1024, and d i j = s j - c i j.  A pair (i, j) counts when
   the two labels agree and i ≠ j; the loss is (Σ_i Σ_j [pair counts] · d i j · d i j) / 8192.
   The float words are kept as the words both programs spell; none of them is evaluated here. -/
import Idealize.ShloMosaic.PureOps.Ideal.Laws
import Idealize.ShloMosaic.Lib.ValueIdx
import proofs.«105206_j85383949845128_1_alg».proof.Proof.LibRowSoftmax

noncomputable section

namespace Cert.PairLoss

open Idealize.ShloMosaic Cert.LibRowSoftmax

/-- The words the two programs share: 4, -inf, the added constant, 1024, 8192. -/
abbrev w4 : EReal := Ideal.ofBits .f32 0x40800000#32
abbrev wNegInf : EReal := Ideal.ofBits .f32 0xFF800000#32
abbrev wEps : EReal := Ideal.ofBits .f32 0x322BCC77#32
abbrev w1024 : EReal := Ideal.ofBits .f32 0x44800000#32
abbrev w8192 : EReal := Ideal.ofBits .f32 0x46000000#32

variable (x : Fin 8192 → Fin 1024 → EReal) (lab : Fin 8192 → BitVec 32)

/-- Row i of the logits divided by 4. -/
def scaled (i : Fin 8192) (k : Fin 1024) : EReal := Ideal.div (x i k) w4

/-- P i k: the softmax of the scaled row i at k, plus the added constant. -/
def probs (i : Fin 8192) (k : Fin 1024) : EReal := softmaxFrom wNegInf (scaled x i) k + wEps

/-- s j: the mean over the row of P j k · log P j k. -/
def selfTerm (j : Fin 8192) : EReal := Ideal.div (∑ k : Fin 1024, probs x j k * Ideal.log (probs x j k)) w1024

/-- c i j: the mean over k of P i k · P j k. -/
def cross (i j : Fin 8192) : EReal := Ideal.div (∑ k : Fin 1024, probs x i k * probs x j k) w1024

/-- d i j = s j - c i j. -/
def kl (i j : Fin 8192) : EReal := selfTerm x j - cross x i j

/-- 1 when rows i and j carry the same label and i ≠ j, else 0. -/
def pairMask (i j : Fin 8192) : EReal := if lab i = lab j ∧ i ≠ j then 1 else 0

/-- One pair's contribution: [pair counts] · d i j · d i j, multiplied in this order. -/
def term (i j : Fin 8192) : EReal := pairMask lab i j * kl x i j * kl x i j

/-- The loss: the sum over all pairs, divided by 8192. -/
def loss : EReal := Ideal.div (∑ i : Fin 8192, ∑ j : Fin 8192, term x lab i j) w8192

end Cert.PairLoss

end
-- ==== Proof.IStatsValue.lean ====
/-
  Region 0 at the extended reals: what the two output buffers hold, entry by entry.

  With exact arithmetic the body's first result, read at row p and column k of the input block x0, is
      softmax(x0 p · / 4) k + eps,
  the softmax centred at the row's maximum taken from -inf, and its second result at row p is
      (Σ_k P p k · log P p k) / 1024   where P is the first result.
  The kernel spells the row maximum as max(-inf, max_k …); the outer max is redundant because a maximum
  taken from -inf is already at least -inf. Narrowing to bf16 does nothing to an extended real.
-/
import proofs.«105206_j85383949845128_1_alg».proof.Proof.IStats
import proofs.«105206_j85383949845128_1_alg».proof.Proof.Spec
import proofs.«105206_j85383949845128_1_alg».proof.Proof.LibRowSoftmax

noncomputable section

namespace Cert.KernelIdeal.StatsValue

open Idealize.ShloMosaic Idealize.ShloMosaic.ValueIdx
open Cert.KernelIdeal Cert.KernelIdeal.Gen Cert.KernelIdeal.Hand
open Cert.LibRowSoftmax Cert.PairLoss

/-- The offset (0, 0) is the zero offset. -/
theorem zero_offset : (![0, 0] : Fin 2 → ℕ) = fun _ => 0 := by
  funext a; fin_cases a <;> rfl

/-! ## The redundant outer maximum -/

/-- Entry by entry, the larger of -inf and a row maximum taken from -inf is that row maximum. -/
theorem max_splat_rowMax (e : FVec Ideal S1024x1024 .f32) :
    maximumf (broadcast S1024 (Scalar.ofBits (F := Ideal) .f32 0xFF800000#32))
        (multiReduction .maximumf [1] S1024 e 0xFF800000#32 reduces_S1024x1024_S1024 (.inl rfl) rfl)
      = multiReduction .maximumf [1] S1024 e 0xFF800000#32 reduces_S1024x1024_S1024 (.inl rfl) rfl := by
  funext j
  obtain ⟨p, rfl⟩ : ∃ p : Fin 1024, j = ix1 p := ⟨j 0, eq_ix1 j⟩
  have h := multiReduction_max_row e 0xFF800000#32 reduces_S1024x1024_S1024 (.inl rfl) rfl p
  refine (maximumf_apply _ _ _).trans ?_
  exact (congrArg (max _) h).trans ((max_maxFrom _ _).trans h.symm)

/-! ## The shared intermediate: softmax of the scaled rows, plus eps -/

/-- The body's shared intermediate is the library's row-softmax chain applied to x0 / 4, plus the eps splat. -/
theorem pay1_eq (x0 : Vec Ideal S1024x1024 .f32) :
    k0_pay1 (F := Ideal) x0
      = addf (rowSoftmax (divf x0 (broadcast S1024x1024 (Scalar.ofBits (F := Ideal) .f32 0x40800000#32)))
            reduces_S1024x1024_S1024 shapeCasts_S1024_S1024x1 broadcasts_S1024x1_S1024x1024)
          (broadcast S1024x1024 (Scalar.ofBits (F := Ideal) .f32 0x322BCC77#32)) := by
  -- both sides are one chain of operations of the row maximum m; the two maxima agree
  have key := congrArg
    (fun m : FVec Ideal S1024 .f32 =>
      addf
        (divf
          (exp (subf (divf x0 (broadcast S1024x1024 (Scalar.ofBits (F := Ideal) .f32 0x40800000#32)))
            (broadcastTo S1024x1024 (shapeCast S1024x1 m shapeCasts_S1024_S1024x1) broadcasts_S1024x1_S1024x1024)))
          (broadcastTo S1024x1024 (shapeCast S1024x1
            (multiReduction .add [1] S1024
              (exp (subf (divf x0 (broadcast S1024x1024 (Scalar.ofBits (F := Ideal) .f32 0x40800000#32)))
                (broadcastTo S1024x1024 (shapeCast S1024x1 m shapeCasts_S1024_S1024x1) broadcasts_S1024x1_S1024x1024)))
              0x00000000#32 reduces_S1024x1024_S1024 (.inl rfl) rfl)
            shapeCasts_S1024_S1024x1) broadcasts_S1024x1_S1024x1024))
        (broadcast S1024x1024 (Scalar.ofBits (F := Ideal) .f32 0x322BCC77#32)))
    (max_splat_rowMax (divf x0 (broadcast S1024x1024 (Scalar.ofBits (F := Ideal) .f32 0x40800000#32))))
  exact key

/-- Read at (p, k): the softmax of row p of x0 / 4 at k, plus eps. -/
theorem pay1_apply (x0 : Vec Ideal S1024x1024 .f32) (p : Fin 1024) (k : Fin 1024) :
    k0_pay1 (F := Ideal) x0 (ix2 p k)
      = softmaxFrom wNegInf (fun k' => Ideal.div (x0 (ix2 p k')) w4) k + wEps := by
  rw [pay1_eq]
  refine (addf_apply _ _ _).trans ?_
  rw [rowSoftmax_apply]
  rfl

/-! ## The first output buffer -/

/-- One whole-buffer store from a whole-buffer load: the buffer holds the stored value of x0 itself. -/
theorem out0_1_eq (x0 : Vec Ideal S1024x1024 .f32) : out0_1 (F := Ideal) x0 = k0_pay3 x0 := by
  unfold out0_1
  rw [View.canon_unit_zero zero_offset]
  simp only [View.ld_unit_zero (S := S1024x1024) zero_offset]

/-- Narrowing an extended real changes nothing, so the buffer reads as the shared intermediate. -/
theorem out0_1_pay1 (x0 : Vec Ideal S1024x1024 .f32) (j : S1024x1024.Idx) :
    out0_1 (F := Ideal) x0 j = k0_pay1 x0 j := by
  rw [out0_1_eq]; unfold k0_pay3
  exact truncf_apply _ _ _

theorem out0_1_apply (x0 : Vec Ideal S1024x1024 .f32) (p : Fin 1024) (k : Fin 1024) :
    out0_1 (F := Ideal) x0 (ix2 p k)
      = softmaxFrom wNegInf (fun k' => Ideal.div (x0 (ix2 p k')) w4) k + wEps :=
  (out0_1_pay1 x0 (ix2 p k)).trans (pay1_apply x0 p k)

/-! ## The second output buffer -/

theorem out0_2_eq (x0 : Vec Ideal S1024x1024 .f32) : out0_2 (F := Ideal) x0 = k0_pay2 x0 := by
  unfold out0_2
  rw [View.canon_unit_zero zero_offset]
  simp only [View.ld_unit_zero (S := S1024x1024) zero_offset]

/-- Row p of the column buffer: the row sum of P · log P, as a column entry, over 1024. -/
theorem out0_2_apply (x0 : Vec Ideal S1024x1024 .f32) (p : Fin 1024) :
    out0_2 (F := Ideal) x0 (ix2 p (0 : Fin 1))
      = Ideal.div (∑ k : Fin 1024, (out0_1 (F := Ideal) x0 (ix2 p k)) * Ideal.log (out0_1 (F := Ideal) x0 (ix2 p k))) w1024 := by
  rw [out0_2_eq]; unfold k0_pay2
  refine (divf_apply _ _ _).trans ?_
  refine congrArg₂ Ideal.div ?_ rfl
  refine (Cert.LibColumn.shapeCast_a_a1_apply _ _ p 0).trans ?_
  refine (multiReduction_add_row _ _ _ _ _ p).trans ?_
  refine Finset.sum_congr rfl fun k _ => ?_
  rw [out0_1_pay1]; rfl

end Cert.KernelIdeal.StatsValue

end
-- ==== Proof.IStatsArray.lean ====
/-
  Region 0 at the extended reals: from the blocks the grid points write back to the two result arrays.

  The grid has 8 points; point t works on rows 1024·t … 1024·t + 1023 of the 8192×1024 logits: each of the
  three windows addresses block (t, 0) of its array, so entry (p, k) of a block at point t is entry
  (1024·t + p, k) of the array. The probabilities of a row, and the self term of a row, depend on that row
  of the logits alone; so what point t writes back is block t of ONE function of the whole logits array —
  probs for the first result, selfTerm for the second — and, the 8 blocks tiling each array, the arrays end
  holding those functions.
-/
import proofs.«105206_j85383949845128_1_alg».proof.Proof.IStatsValue
import Idealize.ShloMosaic.Lib.Pipeline.Value

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.LibRowSoftmax Cert.PairLoss

variable (V : (c : Dev nD) → (b : Ref sig .tc) → Buf (Elt Ideal) ((c : Thread nD τ).loc b)) (c : Dev nD)

/-- The logits as the region finds them, by row and column. -/
abbrev logitsOf (V : (c : Dev nD) → (b : Ref sig .tc) → Buf (Elt Ideal) ((c : Thread nD τ).loc b)) (c : Dev nD) :
    Fin 8192 → Fin 1024 → EReal := fun i k => (V c main_arg0 : S8192x1024.Idx → EReal) (ix2 i k)

/-! ## Where the windows sit -/

/-- At point t every window addresses block (t, 0) of its array. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, k) of the input block at point t is entry (1024·t + p, k) of the logits. -/
theorem input_block_apply (t : Fin cfg0.N) (p k : Fin 1024) (i : Fin 8192) (hi : i.val = t.val * 1024 + p.val) :
    (iblk0 V c 0 t : Vec Ideal S1024x1024 .f32) (ix2 p k) = logitsOf V c i k := by
  obtain ⟨e0, e1, -⟩ := block_index t
  unfold iblk0
  rw [View.read_apply]
  show (V c main_arg0 : S8192x1024.Idx → EReal) _ = (V c main_arg0 : S8192x1024.Idx → EReal) (ix2 i k)
  refine congrArg _ ?_
  funext a; apply Fin.ext
  match a with
  | ⟨0, _⟩ => show win0_0.index t (0 : Fin 2) * 1024 + 1 * p.val = i.val; omega
  | ⟨1, _⟩ => show win0_0.index t (1 : Fin 2) * 1024 + 1 * k.val = k.val; omega

/-! ## The first result: the probabilities -/

/-- The whole first result as a function of the logits: entry (i, k) is P i k. -/
def probsArr : S8192x1024.Idx → EReal := fun idx => probs (logitsOf V c) (idx 0) (idx 1)

/-- Entry (p, k) of what the body leaves in the first output buffer at point t is P (1024·t + p) k. -/
theorem block_probs (t : Fin cfg0.N) (p k : Fin 1024) (i : Fin 8192) (hi : i.val = t.val * 1024 + p.val) :
    out0_1 (F := Ideal) (iblk0 V c 0 t) (ix2 p k) = probs (logitsOf V c) i k := by
  refine (out0_1_apply _ p k).trans ?_
  have hrow : (fun k' => Ideal.div ((iblk0 V c 0 t : Vec Ideal S1024x1024 .f32) (ix2 p k')) w4) = scaled (logitsOf V c) i :=
    funext fun k' => congrArg (fun z => Ideal.div z w4) (input_block_apply V c t p k' i hi)
  have key := congrArg (fun r : Fin 1024 → EReal => softmaxFrom wNegInf r k + wEps) hrow
  exact key

/-- What point t writes back to the first result is block t of probsArr. -/
theorem flushed_probs (t : Fin cfg0.N) :
    (dat0 (F := Ideal) V c).flushed 1 t = ((cfg0.win 1).blk t).view.read (Elt Ideal) (probsArr V c) := by
  show (cfg0.win 1).cut (grid0.coords t) ((dat0 (F := Ideal) V c).after 1 t) = _
  rw [after0_1]
  obtain ⟨-, -, e0, e1, -⟩ := block_index t
  funext j
  obtain ⟨p, k, rfl⟩ : ∃ (p : Fin 1024) (k : Fin 1024), j = ix2 p k := ⟨j 0, j 1, eq_ix2 j⟩
  have hlt : t.val * 1024 + p.val < 8192 := by
    have ht := t.isLt; have hN : cfg0.N = 8 := N_0; have hp := p.isLt; omega
  rw [View.read_apply]
  have hemb : ((cfg0.win 1).blk t).view.emb (ix2 p k) = (ix2 (⟨t.val * 1024 + p.val, hlt⟩ : Fin 8192) k : S8192x1024.Idx) := by
    funext a; apply Fin.ext
    match a with
    | ⟨0, _⟩ => show win0_1.index t (0 : Fin 2) * 1024 + 1 * p.val = t.val * 1024 + p.val; omega
    | ⟨1, _⟩ => show win0_1.index t (1 : Fin 2) * 1024 + 1 * k.val = k.val; omega
  rw [hemb]
  exact block_probs V c t p k ⟨t.val * 1024 + p.val, hlt⟩ rfl

/-- An index of the first result lies in point t's block iff each coordinate lies in the block's range. -/
theorem mem_block_probs (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0_0).slice (win0_1.rect t)).set ↔ _
  rw [View.set_slice_whole, Rect.mem_set_unit]
  exact Iff.rfl

/-- Row r of the first result is covered by point r / 1024. -/
theorem cover_probs (i : S8192x1024.Idx) :
    ∃ t : Fin cfg0.N, (cfg0.win 1).flush t = true ∧ i ∈ ((cfg0.win 1).blk t).view.set := by
  have h0 : (i 0).val < 8192 := (i 0).isLt
  have h1 : (i 1).val < 1024 := (i 1).isLt
  have hN : cfg0.N = 8 := N_0
  refine ⟨⟨(i 0).val / 1024, by rw [hN]; omega⟩, flush0_1 _, ?_⟩
  rw [mem_block_probs]
  obtain ⟨-, -, e0, e1, -⟩ := block_index ⟨(i 0).val / 1024, by rw [hN]; omega⟩
  intro a
  match a with
  | ⟨0, _⟩ => show win0_1.index _ (0 : Fin 2) * 1024 ≤ (i 0).val ∧ (i 0).val < win0_1.index _ (0 : Fin 2) * 1024 + 1024; rw [e0]; show (i 0).val / 1024 * 1024 ≤ _ ∧ _ < (i 0).val / 1024 * 1024 + 1024; omega
  | ⟨1, _⟩ => show win0_1.index _ (1 : Fin 2) * 1024 ≤ (i 1).val ∧ (i 1).val < win0_1.index _ (1 : Fin 2) * 1024 + 1024; rw [e1]; omega

/-- The first result array after the region: the probabilities. -/
theorem probs_array : (dat0 (F := Ideal) V c).arrAt 1 cfg0.N = probsArr V c :=
  (dat0 (F := Ideal) V c).arrAt_eq_of_cover 1 (probsArr V c) (fun t _ => flushed_probs V c t) (cover_probs)

theorem probs_final (i : Fin 8192) (k : Fin 1024) :
    (dat0 (F := Ideal) V c).arrAt 1 cfg0.N (ix2 i k) = probs (logitsOf V c) i k :=
  congrFun (probs_array V c) (ix2 i k)

/-! ## The second result: the self terms -/

/-- The whole second result as a function of the logits: entry (j, 0) is s j. -/
def selfArr : S8192x1.Idx → EReal := fun idx => selfTerm (logitsOf V c) (idx 0)

/-- Row p of what the body leaves in the second output buffer at point t is s (1024·t + p): the buffer's
    row is the mean of P · log P over the first buffer's row, and that row is P (1024·t + p). -/
theorem block_self (t : Fin cfg0.N) (p : Fin 1024) (i : Fin 8192) (hi : i.val = t.val * 1024 + p.val) :
    out0_2 (F := Ideal) (iblk0 V c 0 t) (ix2 p (0 : Fin 1)) = selfTerm (logitsOf V c) i := by
  refine (out0_2_apply _ p).trans ?_
  have hsum : (∑ k : Fin 1024, out0_1 (F := Ideal) (iblk0 V c 0 t) (ix2 p k) * Ideal.log (out0_1 (F := Ideal) (iblk0 V c 0 t) (ix2 p k)))
      = ∑ k : Fin 1024, probs (logitsOf V c) i k * Ideal.log (probs (logitsOf V c) i k) :=
    Finset.sum_congr rfl fun k _ => by rw [block_probs V c t p k i hi]
  have key := congrArg (fun s : EReal => Ideal.div s w1024) hsum
  exact key

/-- What point t writes back to the second result is block t of selfArr. -/
theorem flushed_self (t : Fin cfg0.N) :
    (dat0 (F := Ideal) V c).flushed 2 t = ((cfg0.win 2).blk t).view.read (Elt Ideal) (selfArr V c) := by
  show (cfg0.win 2).cut (grid0.coords t) ((dat0 (F := Ideal) V c).after 2 t) = _
  rw [after0_2]
  obtain ⟨-, -, -, -, e0, e1⟩ := block_index t
  funext j
  obtain ⟨p, u, rfl⟩ : ∃ (p : Fin 1024) (u : Fin 1), j = ix2 p u := ⟨j 0, j 1, eq_ix2 j⟩
  obtain rfl : u = 0 := Subsingleton.elim _ _
  have hlt : t.val * 1024 + p.val < 8192 := by
    have ht := t.isLt; have hN : cfg0.N = 8 := N_0; have hp := p.isLt; omega
  rw [View.read_apply]
  have hemb : ((cfg0.win 2).blk t).view.emb (ix2 p (0 : Fin 1)) = (ix2 (⟨t.val * 1024 + p.val, hlt⟩ : Fin 8192) (0 : Fin 1) : S8192x1.Idx) := by
    funext a; apply Fin.ext
    match a with
    | ⟨0, _⟩ => show win0_2.index t (0 : Fin 2) * 1024 + 1 * p.val = t.val * 1024 + p.val; omega
    | ⟨1, _⟩ => show win0_2.index t (1 : Fin 2) * 1 + 1 * 0 = 0; omega
  rw [hemb]
  exact block_self V c t p ⟨t.val * 1024 + p.val, hlt⟩ rfl

/-- An index of the second result lies in point t's block iff each coordinate lies in the block's range. -/
theorem mem_block_self (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_1).slice (win0_2.rect t)).set ↔ _
  rw [View.set_slice_whole, Rect.mem_set_unit]
  exact Iff.rfl

/-- Row r of the second result is covered by point r / 1024. -/
theorem cover_self (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  have hN : cfg0.N = 8 := N_0
  refine ⟨⟨(i 0).val / 1024, by rw [hN]; omega⟩, flush0_2 _, ?_⟩
  rw [mem_block_self]
  obtain ⟨-, -, -, -, e0, e1⟩ := block_index ⟨(i 0).val / 1024, by rw [hN]; omega⟩
  intro a
  match a with
  | ⟨0, _⟩ => show win0_2.index _ (0 : Fin 2) * 1024 ≤ (i 0).val ∧ (i 0).val < win0_2.index _ (0 : Fin 2) * 1024 + 1024; rw [e0]; show (i 0).val / 1024 * 1024 ≤ _ ∧ _ < (i 0).val / 1024 * 1024 + 1024; omega
  | ⟨1, _⟩ => show win0_2.index _ (1 : Fin 2) * 1 ≤ (i 1).val ∧ (i 1).val < win0_2.index _ (1 : Fin 2) * 1 + 1; rw [e1]; omega

/-- The second result array after the region: the self terms. -/
theorem self_array : (dat0 (F := Ideal) V c).arrAt 2 cfg0.N = selfArr V c :=
  (dat0 (F := Ideal) V c).arrAt_eq_of_cover 2 (selfArr V c) (fun t _ => flushed_self V c t) (cover_self)

theorem self_final (j : Fin 8192) :
    (dat0 (F := Ideal) V c).arrAt 2 cfg0.N (ix2 j (0 : Fin 1)) = selfTerm (logitsOf V c) j :=
  congrFun (self_array V c) (ix2 j (0 : Fin 1))

end Cert.KernelIdeal.StatsValue

end
-- ==== Proof.IPairBlocks.lean ====
/-
  The second region's five input blocks, entry by entry, as functions of the launch memory.

  Between the two kernel regions the host re-lays three arrays: the self terms [8192, 1] as a row [1, 8192], and
  the labels [8192] once as a column [8192, 1] and once as a row [1, 8192]; it does not touch the probabilities.
  A re-layout keeps row-major position, so entry (0, j) of a row, or (j, 0) of a column, is entry j of what was
  re-laid.  The second region's grid is 8 × 8: point t has row tile ti = t / 8 and column tile tj = t % 8, and its
  windows address the probabilities' row blocks ti and tj, the self-term row's column block tj, the label column's
  row block ti and the label row's column block tj.  Entry p (or q) of a block of 1024 is entry 1024·ti + p (or
  1024·tj + q) of its array.  With the first region's two results known to be P and s of the launch logits, every
  entry of the five blocks is P, s or a label of the launch memory at those global positions.
-/
import proofs.«105206_j85383949845128_1_alg».proof.Proof.IStatsArray
import proofs.«105206_j85383949845128_1_alg».proof.Proof.IRunA
import proofs.«105206_j85383949845128_1_alg».proof.Proof.IPair

noncomputable section

namespace Cert.KernelIdeal.PairValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.StatsValue
open Cert.LibRowSoftmax Cert.PairLoss

variable (m : (ℓ : Loc nD τ sig) → Buf (Elt Ideal) ℓ) (c : Dev nD)

/-- The launch logits by row and column, and the launch labels by row. -/
abbrev logitsMem (m : (ℓ : Loc nD τ sig) → Buf (Elt Ideal) ℓ) (c : Dev nD) : Fin 8192 → Fin 1024 → EReal :=
  fun i k => (m ((c : Thread nD τ).loc main_arg0) : S8192x1024.Idx → EReal) (ix2 i k)
abbrev labelsMem (m : (ℓ : Loc nD τ sig) → Buf (Elt Ideal) ℓ) (c : Dev nD) : Fin 8192 → BitVec 32 :=
  fun i => (m ((c : Thread nD τ).loc main_arg1) : S8192.Idx → BitVec 32) (ix1 i)

/-- The logits the first region finds are the launch logits. -/
theorem logitsMem_eq : logitsMem m c = logitsOf (X0 m) c := rfl

/-! ## The grid and the windows' block indices -/

/-- Point t of the 8 × 8 grid has coordinates (t / 8, t % 8). -/
theorem coords_of (t : Fin cfg1.N) : ((grid1.coords t) 0).val = t.val / 8 ∧ ((grid1.coords t) 1).val = t.val % 8 :=
  (by decide +kernel : ∀ t : Fin grid1.N, ((grid1.coords t) 0).val = t.val / 8 ∧ ((grid1.coords t) 1).val = t.val % 8) t

/-- Which block of its array each input window addresses at point t. -/
private theorem pairBlockIndex : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0
    ∧ win1_4.index t (0 : Fin 2) = 0 ∧ win1_4.index t (1 : Fin 2) = t.val % 8 :=
  (by decide +kernel : ∀ t : Fin grid1.N, _)

/-! ## The three re-layouts, from any contents -/

private theorem relayoutKeepsProbs (W : Valuation τ sig (Elt Ideal)) :
    StableHlo.after hostOps1 W (Proc.devRef .tc main_v0_0) = W (Proc.devRef .tc main_v0_0) := by
  dsimp only [hostOps1]; after_results

private theorem relayoutSelfRow (W : Valuation τ sig (Elt Ideal)) :
    (StableHlo.after hostOps1 W (Proc.devRef .tc main_v1) : S1x8192.Idx → EReal)
      = shapeCast S1x8192 (W (Proc.devRef .tc main_v0_1) : S8192x1.Idx → EReal) shapeCasts_S8192x1_S1x8192 := by
  dsimp only [hostOps1]; after_results; rfl

private theorem relayoutLabelCol (W : Valuation τ sig (Elt Ideal)) :
    (StableHlo.after hostOps1 W (Proc.devRef .tc main_v2) : S8192x1.Idx → BitVec 32)
      = shapeCast S8192x1 (W (Proc.devRef .tc main_arg1) : S8192.Idx → BitVec 32) shapeCasts_S8192_S8192x1 := by
  dsimp only [hostOps1]; after_results; rfl

private theorem relayoutLabelRow (W : Valuation τ sig (Elt Ideal)) :
    (StableHlo.after hostOps1 W (Proc.devRef .tc main_v3) : S1x8192.Idx → BitVec 32)
      = shapeCast S1x8192 (W (Proc.devRef .tc main_arg1) : S8192.Idx → BitVec 32) shapeCasts_S8192_S1x8192 := by
  dsimp only [hostOps1]; after_results; rfl

/-! ## What the second region finds in its four input arrays -/

/-- The probabilities: the first region's first result, untouched by the re-layouts. -/
private theorem pairEntryProbs : (X2 m c main_v0_0 : S8192x1024.Idx → EReal) = probsArr (X0 m) c := by
  refine (relayoutKeepsProbs (W1 m c)).trans ?_
  rw [W1_probs]; unfold probsOut
  exact probs_array (X0 m) c

/-- The self terms as a row. -/
private theorem pairEntrySelfRow :
    (X2 m c main_v1 : S1x8192.Idx → EReal) = shapeCast S1x8192 (selfArr (X0 m) c) shapeCasts_S8192x1_S1x8192 := by
  refine (relayoutSelfRow (W1 m c)).trans ?_
  rw [W1_self]; unfold selfOut
  rw [self_array]

/-- The labels as a column and as a row. -/
private theorem pairEntryLabelCol :
    (X2 m c main_v2 : S8192x1.Idx → BitVec 32)
      = shapeCast S8192x1 (m ((c : Thread nD τ).loc main_arg1) : S8192.Idx → BitVec 32) shapeCasts_S8192_S8192x1 := by
  refine (relayoutLabelCol (W1 m c)).trans ?_
  rw [W1_other m c main_arg1 (by decide) (by decide)]

private theorem pairEntryLabelRow :
    (X2 m c main_v3 : S1x8192.Idx → BitVec 32)
      = shapeCast S1x8192 (m ((c : Thread nD τ).loc main_arg1) : S8192.Idx → BitVec 32) shapeCasts_S8192_S1x8192 := by
  refine (relayoutLabelRow (W1 m c)).trans ?_
  rw [W1_other m c main_arg1 (by decide) (by decide)]

/-! ## Re-layouts read at an index -/

/-- Entry (0, j) of a column [8192, 1] re-laid as a row is the column's entry (j, 0). -/
private theorem rowOfColumn_apply {α : Type} (x : S8192x1.Idx → α) (j : Fin 8192) :
    shapeCast S1x8192 x shapeCasts_S8192x1_S1x8192 (ix2 (0 : Fin 1) j) = x (ix2 j (0 : Fin 1)) :=
  shapeCast_apply x _ _ _ (by
    rw [Shape.rowMajor_val_two, Shape.rowMajor_val_two]
    show j.val * 1 + 0 = 0 * 8192 + j.val
    omega)

/-- Entry (i, 0) of a vector [8192] re-laid as a column is the vector's entry i. -/
private theorem columnOfVector_apply {α : Type} (x : S8192.Idx → α) (i : Fin 8192) :
    shapeCast S8192x1 x shapeCasts_S8192_S8192x1 (ix2 i (0 : Fin 1)) = x (ix1 i) :=
  shapeCast_apply x _ _ _ (by
    rw [Shape.rowMajor_val_one, Shape.rowMajor_val_two]
    show i.val = i.val * 1 + 0
    omega)

/-- Entry (0, j) of a vector [8192] re-laid as a row is the vector's entry j. -/
private theorem rowOfVector_apply {α : Type} (x : S8192.Idx → α) (j : Fin 8192) :
    shapeCast S1x8192 x shapeCasts_S8192_S1x8192 (ix2 (0 : Fin 1) j) = x (ix1 j) :=
  shapeCast_apply x _ _ _ (by
    rw [Shape.rowMajor_val_one, Shape.rowMajor_val_two]
    show j.val = 0 * 8192 + j.val
    omega)

/-! ## The five blocks -/

variable (t : Fin cfg1.N) (p q k : Fin 1024) (i j : Fin 8192)

/-- Window 0: row p of the probabilities' row block t / 8. -/
theorem pair_block0 (hi : i.val = (t.val / 8) * 1024 + p.val) :
    (iblk1 (F := Ideal) (X2 m) c 0 t) (ix2 p k) = probs (logitsMem m c) i k := by
  obtain ⟨e0, e1, -⟩ := pairBlockIndex t
  unfold iblk1
  rw [View.read_apply]
  have hemb : ((cfg1.win 0).blk t).view.emb (ix2 p k) = (ix2 i k : S8192x1024.Idx) := by
    funext a; apply Fin.ext
    match a with
    | ⟨0, _⟩ => show win1_0.index t (0 : Fin 2) * 1024 + 1 * p.val = i.val; omega
    | ⟨1, _⟩ => show win1_0.index t (1 : Fin 2) * 1024 + 1 * k.val = k.val; omega
  rw [hemb]
  show (X2 m c main_v0_0 : S8192x1024.Idx → EReal) (ix2 i k) = _
  rw [pairEntryProbs]
  rfl

/-- Window 1: row q of the probabilities' row block t % 8. -/
theorem pair_block1 (hj : j.val = (t.val % 8) * 1024 + q.val) :
    (iblk1 (F := Ideal) (X2 m) c 1 t) (ix2 q k) = probs (logitsMem m c) j k := by
  obtain ⟨-, -, e0, e1, -⟩ := pairBlockIndex t
  unfold iblk1
  rw [View.read_apply]
  have hemb : ((cfg1.win 1).blk t).view.emb (ix2 q k) = (ix2 j k : S8192x1024.Idx) := by
    funext a; apply Fin.ext
    match a with
    | ⟨0, _⟩ => show win1_1.index t (0 : Fin 2) * 1024 + 1 * q.val = j.val; omega
    | ⟨1, _⟩ => show win1_1.index t (1 : Fin 2) * 1024 + 1 * k.val = k.val; omega
  rw [hemb]
  show (X2 m c main_v0_0 : S8192x1024.Idx → EReal) (ix2 j k) = _
  rw [pairEntryProbs]
  rfl

/-- Window 2: column q of the self-term row's column block t % 8. -/
theorem pair_block2 (hj : j.val = (t.val % 8) * 1024 + q.val) :
    (iblk1 (F := Ideal) (X2 m) c 2 t) (ix2 (0 : Fin 1) q) = selfTerm (logitsMem m c) j := by
  obtain ⟨-, -, -, -, e0, e1, -⟩ := pairBlockIndex t
  unfold iblk1
  rw [View.read_apply]
  have hemb : ((cfg1.win 2).blk t).view.emb (ix2 (0 : Fin 1) q) = (ix2 (0 : Fin 1) j : S1x8192.Idx) := by
    funext a; apply Fin.ext
    match a with
    | ⟨0, _⟩ => show win1_2.index t (0 : Fin 2) * 1 + 1 * 0 = 0; omega
    | ⟨1, _⟩ => show win1_2.index t (1 : Fin 2) * 1024 + 1 * q.val = j.val; omega
  rw [hemb]
  show (X2 m c main_v1 : S1x8192.Idx → EReal) (ix2 (0 : Fin 1) j) = _
  rw [pairEntrySelfRow, rowOfColumn_apply]
  rfl

/-- Window 3: row p of the label column's row block t / 8. -/
theorem pair_block3 (hi : i.val = (t.val / 8) * 1024 + p.val) :
    (iblk1 (F := Ideal) (X2 m) c 3 t) (ix2 p (0 : Fin 1)) = labelsMem m c i := by
  obtain ⟨-, -, -, -, -, -, e0, e1, -⟩ := pairBlockIndex t
  unfold iblk1
  rw [View.read_apply]
  have hemb : ((cfg1.win 3).blk t).view.emb (ix2 p (0 : Fin 1)) = (ix2 i (0 : Fin 1) : S8192x1.Idx) := by
    funext a; apply Fin.ext
    match a with
    | ⟨0, _⟩ => show win1_3.index t (0 : Fin 2) * 1024 + 1 * p.val = i.val; omega
    | ⟨1, _⟩ => show win1_3.index t (1 : Fin 2) * 1 + 1 * 0 = 0; omega
  rw [hemb]
  show (X2 m c main_v2 : S8192x1.Idx → BitVec 32) (ix2 i (0 : Fin 1)) = _
  rw [pairEntryLabelCol, columnOfVector_apply]

/-- Window 4: column q of the label row's column block t % 8. -/
theorem pair_block4 (hj : j.val = (t.val % 8) * 1024 + q.val) :
    (iblk1 (F := Ideal) (X2 m) c 4 t) (ix2 (0 : Fin 1) q) = labelsMem m c j := by
  obtain ⟨-, -, -, -, -, -, -, -, e0, e1⟩ := pairBlockIndex t
  unfold iblk1
  rw [View.read_apply]
  have hemb : ((cfg1.win 4).blk t).view.emb (ix2 (0 : Fin 1) q) = (ix2 (0 : Fin 1) j : S1x8192.Idx) := by
    funext a; apply Fin.ext
    match a with
    | ⟨0, _⟩ => show win1_4.index t (0 : Fin 2) * 1 + 1 * 0 = 0; omega
    | ⟨1, _⟩ => show win1_4.index t (1 : Fin 2) * 1024 + 1 * q.val = j.val; omega
  rw [hemb]
  show (X2 m c main_v3 : S1x8192.Idx → BitVec 32) (ix2 (0 : Fin 1) j) = _
  rw [pairEntryLabelRow, rowOfVector_apply]

end Cert.KernelIdeal.PairValue

end
-- ==== Proof.LibBlockSum.lean ====
/-
  A finite sum evaluated in blocks of consecutive indices.

  In a commutative monoid, for a block width B and a number of blocks n:
    * the sum over the first B * n natural numbers is the sum over t < n of the sums over the B numbers from B * t on;
    * so a sum over an index type with B * n elements is the sum of its n blocks' sums;
    * and a sum over B indices whose r-th entry is entry B * t + r of a family is that family's block t.
  The blocks' sums added one after the other (the blocks 0 .. n, then block n + 1) are the library's sum over a range
  with one more element. Only associativity and commutativity of addition are used, so all of this holds on the
  extended reals with no finiteness condition: it is the law that joins an accumulation over K-blocks (a matrix
  product cut along its contracted axis and accumulated block by block) to the whole sum.
-/
import Mathlib.Algebra.BigOperators.Fin
import Mathlib.Algebra.BigOperators.Intervals

namespace Cert.LibBlockSum

variable {M : Type*} [AddCommMonoid M]

/-- The sum over the first B * n natural numbers is the sum, block by block, of n blocks of B consecutive numbers. -/
theorem sum_range_blocks (g : ℕ → M) (B : ℕ) :
    ∀ n, ∑ k ∈ Finset.range (B * n), g k = ∑ t ∈ Finset.range n, ∑ r ∈ Finset.range B, g (B * t + r)
  | 0 => by simp
  | n + 1 => by
    rw [Nat.mul_succ, Finset.sum_range_add, sum_range_blocks g B n, Finset.sum_range_succ]

/-- A family indexed by N indices, continued by zero to every natural number. -/
def total {N : ℕ} (f : Fin N → M) (k : ℕ) : M := if h : k < N then f ⟨k, h⟩ else 0

theorem total_val {N : ℕ} (f : Fin N → M) (k : Fin N) : total f k.val = f k := dif_pos k.isLt

theorem total_of_lt {N : ℕ} (f : Fin N → M) (k : ℕ) (h : k < N) : total f k = f ⟨k, h⟩ := dif_pos h

/-- The sum of block t of width B: the B indices from B * t on. -/
def block {N : ℕ} (B : ℕ) (f : Fin N → M) (t : ℕ) : M := ∑ r : Fin B, total f (B * t + r.val)

/-- A sum over B * n indices is the sum of its n blocks of width B. -/
theorem sum_eq_blocks {N : ℕ} (B n : ℕ) (hN : N = B * n) (f : Fin N → M) :
    ∑ k, f k = ∑ t ∈ Finset.range n, block B f t := by
  subst hN
  have e : ∑ k, f k = ∑ k : Fin (B * n), total f k.val := Finset.sum_congr rfl fun k _ => (total_val f k).symm
  rw [e, Fin.sum_univ_eq_sum_range (total f) (B * n), sum_range_blocks (total f) B n]
  refine Finset.sum_congr rfl fun t _ => ?_
  exact (Fin.sum_univ_eq_sum_range (fun r => total f (B * t + r)) B).symm

/-- A sum over B indices whose r-th entry is entry B * t + r of the family is block t's sum. -/
theorem block_eq {N : ℕ} (B : ℕ) (f : Fin N → M) (t : ℕ) (g : Fin B → M) (hlt : ∀ r : Fin B, B * t + r.val < N)
    (hg : ∀ r : Fin B, g r = f ⟨B * t + r.val, hlt r⟩) : ∑ r, g r = block B f t :=
  Finset.sum_congr rfl fun r _ => (hg r).trans (total_of_lt f _ (hlt r)).symm

/-- The blocks 0 .. n + 1 added up are the blocks 0 .. n added up, plus block n + 1. -/
theorem blocks_succ {N : ℕ} (B : ℕ) (f : Fin N → M) (n : ℕ) :
    ∑ t ∈ Finset.range (n + 1 + 1), block B f t = ∑ t ∈ Finset.range (n + 1), block B f t + block B f (n + 1) :=
  Finset.sum_range_succ _ (n + 1)

end Cert.LibBlockSum
-- ==== Proof.PairTiles.lean ====
/- The loss's double sum regrouped into 8 × 8 tiles of 1024 × 1024 pairs.

   Row 1024 · t + p of the 8192 rows is row p of block t.  A sum over the 8192 rows is the sum over the 8 blocks of
   the sums over each block's 1024 rows; applied to both indices of the double sum, and the two middle sums
   exchanged, the loss's total is the sum over the 64 tiles of the tiles' own double sums.  Only commutativity and
   associativity of addition are used. -/
import proofs.«105206_j85383949845128_1_alg».proof.Proof.Spec
import proofs.«105206_j85383949845128_1_alg».proof.Proof.LibBlockSum

noncomputable section

namespace Cert.PairLoss

open Cert.LibBlockSum

/-- Row p of block t, among the 8192 rows. -/
def gidx (ti : Fin 8) (p : Fin 1024) : Fin 8192 := ⟨ti.val * 1024 + p.val, by omega⟩

theorem gidx_val (ti : Fin 8) (p : Fin 1024) : (gidx ti p).val = ti.val * 1024 + p.val := rfl

/-- A sum over the 8192 rows is the sum over the 8 blocks of the sums over each block's 1024 rows. -/
theorem sum_rows_blocks {M : Type*} [AddCommMonoid M] (f : Fin 8192 → M) :
    ∑ i : Fin 8192, f i = ∑ t : Fin 8, ∑ p : Fin 1024, f (gidx t p) := by
  rw [sum_eq_blocks 1024 8 (by norm_num) f, ← Fin.sum_univ_eq_sum_range (fun t => block 1024 f t) 8]
  refine Finset.sum_congr rfl fun t _ => ?_
  exact (block_eq 1024 f t.val (fun p => f (gidx t p)) (fun r => by omega)
    (fun r => congrArg f (Fin.ext (by show t.val * 1024 + r.val = 1024 * t.val + r.val; omega)))).symm

variable (x : Fin 8192 → Fin 1024 → EReal) (lab : Fin 8192 → BitVec 32)

/-- The contributions of the pairs of tile (ti, tj): rows of block ti against rows of block tj. -/
def tileSum (ti tj : Fin 8) : EReal := ∑ p : Fin 1024, ∑ q : Fin 1024, term x lab (gidx ti p) (gidx tj q)

/-- The 64 tiles' sums add up to the loss's double sum. -/
theorem tiles_total :
    ∑ ti : Fin 8, ∑ tj : Fin 8, tileSum x lab ti tj = ∑ i : Fin 8192, ∑ j : Fin 8192, term x lab i j := by
  rw [sum_rows_blocks (fun i => ∑ j : Fin 8192, term x lab i j)]
  refine Finset.sum_congr rfl fun ti _ => ?_
  refine Eq.trans ?_ (Finset.sum_congr rfl fun p _ => (sum_rows_blocks (fun j => term x lab (gidx ti p) j)).symm)
  rw [Finset.sum_comm]
  rfl

end Cert.PairLoss

end
-- ==== Proof.PairPayload.lean ====
/- The pairwise kernel's payloads read at an index, and one tile's total.

   On a tile (ti, tj) the kernel forms d p q = s q - (Σ_k P p k · P' q k) / 1024 from the two row blocks of P and
   the block of self terms, the mask [labels agree and global row ≠ global column] from the two label blocks and the
   two counters (block number · 1024 + position, all below 8192, so no wrap-around of the 32-bit counters), and
   mask · d; the total Σ_p Σ_q (mask · d) · d is added, at entry (0, 0) only, to an [8, 128] accumulator that the
   first column of tiles starts from zero.  With the blocks the rows gidx ti p and gidx tj q of the specification's
   P, s and labels, the total is the specification's tile sum. -/
import proofs.«105206_j85383949845128_1_alg».proof.Proof.Gen.KernelIdeal.Skeleton
import proofs.«105206_j85383949845128_1_alg».proof.Proof.PairTiles
import proofs.«105206_j85383949845128_1_alg».proof.Proof.LibRowSoftmax
import Idealize.ShloMosaic.Lib.ValueLayout
import Idealize.ShloMosaic.Lib.IdealHost

noncomputable section

namespace Cert.KernelIdeal.PairValue

open Cert.KernelIdeal Cert.KernelIdeal.Gen Idealize.ShloMosaic Idealize.ShloMosaic.ValueIdx

/-! ## Words -/

/-- A select between two values on a one-bit word that is 1 exactly when P holds is the if on P. -/
theorem select_bit {α : Type} (b : BitVec 1) (P : Prop) [Decidable P] (h : b = 1#1 ↔ P) (A B : α) :
    Scalar.select b A B = if P then A else B := by
  by_cases hP : P
  · rw [if_pos hP, h.mpr hP]; exact select_one A B
  · rw [if_neg hP, eq_zero_of_ne_one (fun hb => hP (h.mp hb))]; exact select_zero A B

/-- The exclusive or of a one-bit word with 1 is 1 exactly when the word is not. -/
theorem xori_one_eq_one (c : BitVec 1) : IntOp.xori c 1#1 = 1#1 ↔ ¬c = 1#1 := by revert c; decide

/-- The 32-bit counters position + block · 1024 of two rows below 8192 are equal exactly when the rows are. -/
theorem counter_eq_iff (a b p q : ℕ) (ha : a < 8) (hb : b < 8) (hp : p < 1024) (hq : q < 1024) :
    IntOp.addi (BitVec.ofNat 32 p) (Scalar.muli (BitVec.ofNat 32 a) 1024#32)
        = IntOp.addi (BitVec.ofNat 32 q) (Scalar.muli (BitVec.ofNat 32 b) 1024#32)
      ↔ a * 1024 + p = b * 1024 + q := by
  unfold IntOp.addi Scalar.muli IntOp.muli
  rw [← BitVec.toNat_inj]
  simp only [BitVec.toNat_add, BitVec.toNat_mul, BitVec.toNat_ofNat, Nat.reducePow, Nat.reduceMod]
  omega

/-- The 32-bit counter of a coordinate below 2^32 is the zero word exactly when the coordinate is 0. -/
theorem counter_eq_zero_iff (r : ℕ) (hr : r < 4294967296) : BitVec.ofNat 32 r = 0#32 ↔ r = 0 := by
  rw [← BitVec.toNat_inj]
  simp only [BitVec.toNat_ofNat, Nat.reducePow, Nat.reduceMod]
  omega

/-! ## The contraction's operand indices -/

theorem lhs_0 (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_1 (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k
theorem rhs_0 (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_1 (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The product of a [1024, 1024] block with another's transpose, into zero, at (p, q): Σ_k a p k · b q k. -/
theorem matmul_at (a b : FVec Ideal S1024x1024 .bf16) (p q : Fin 1024) :
    matmul dot_S1024x1024_S1024x1024_S1024x1024_1_1_0_0_n_n none a b (constant S1024x1024 .f32 0x00000000#32) (ix2 p q)
      = ∑ k : Fin 1024, a (ix2 p k) * b (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun c => Fin.ext (by
      match c with
      | ⟨0, _⟩ => exact lhs_0 _ _
      | ⟨1, _⟩ => exact (lhs_1 _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun c => Fin.ext (by
      match c with
      | ⟨0, _⟩ => exact rhs_0 _ _
      | ⟨1, _⟩ => exact (rhs_1 _ _).trans hk)
  rw [el, er]

/-! ## The payloads -/

section
variable (x0 x1 : Vec Ideal S1024x1024 .bf16) (x2 : Vec Ideal S1x1024 .f32)
  (x3 : Vec Ideal S1024x1 .i32) (x4 : Vec Ideal S1x1024 .i32) (i : grid1.Coords) (p q : Fin 1024)

/-- d p q = s q - (Σ_k P p k · P' q k) / 1024. -/
theorem pay3_apply :
    k1_pay3 x0 x1 x2 (ix2 p q)
      = x2 (ix2 (0 : Fin 1) q) - Ideal.div (∑ k : Fin 1024, x0 (ix2 p k) * x1 (ix2 q k)) Cert.PairLoss.w1024 := by
  unfold k1_pay3
  simp only [shapeCast_self]
  refine (subf_apply _ _ _).trans ?_
  rw [broadcastTo_1b_ab_apply, divf_apply, matmul_at]
  rfl

/-- The mask's condition at (p, q): the labels agree and the global row is not the global column. -/
theorem mask_word :
    IntOp.andi (IntOp.cmpi .eq (x3 (ix2 p (0 : Fin 1))) (x4 (ix2 (0 : Fin 1) q)))
        (IntOp.xori (IntOp.cmpi .eq
          (IntOp.addi (BitVec.ofNat 32 p.val) (Scalar.muli (BitVec.ofNat 32 (i 0).val) 1024#32))
          (IntOp.addi (BitVec.ofNat 32 q.val) (Scalar.muli (BitVec.ofNat 32 (i 1).val) 1024#32))) 1#1) = 1#1
      ↔ x3 (ix2 p (0 : Fin 1)) = x4 (ix2 (0 : Fin 1) q) ∧ ¬((i 0).val * 1024 + p.val = (i 1).val * 1024 + q.val) := by
  rw [IntOp.andi_eq_one, IntOp.cmpi_eq, xori_one_eq_one, IntOp.cmpi_eq,
    counter_eq_iff (i 0).val (i 1).val p.val q.val (i 0).isLt (i 1).isLt p.isLt q.isLt]

/-- mask p q · d p q. -/
theorem pay4_apply :
    k1_pay4 i x0 x1 x2 x3 x4 (ix2 p q)
      = (if x3 (ix2 p (0 : Fin 1)) = x4 (ix2 (0 : Fin 1) q) ∧ ¬((i 0).val * 1024 + p.val = (i 1).val * 1024 + q.val)
          then (1 : EReal) else 0) * k1_pay3 x0 x1 x2 (ix2 p q) := by
  unfold k1_pay4
  simp only [shapeCast_self]
  refine (mulf_apply _ _ _).trans ?_
  refine congrArg (· * k1_pay3 x0 x1 x2 (ix2 p q)) ?_
  refine (select_apply _ _ _ _).trans ?_
  refine (select_bit _ (x3 (ix2 p (0 : Fin 1)) = x4 (ix2 (0 : Fin 1) q)
    ∧ ¬((i 0).val * 1024 + p.val = (i 1).val * 1024 + q.val)) ?_ _ _).trans ?_
  · simp only [andi, cmpi, xori, addi, constantI, broadcast, Cert.LibColumn.broadcastTo_a1_ab_apply,
      broadcastTo_1b_ab_apply]
    rw [iota_single_apply, iota_single_apply]
    exact mask_word x3 x4 i p q
  · rw [broadcast_apply, broadcast_apply]
    show (if _ then Ideal.ofBits .f32 0x3F800000#32 else Ideal.ofBits .f32 0x00000000#32) = _
    rw [Ideal.ofBits_one_f32, Ideal.ofBits_zero_f32]

end

/-- The accumulator's starting value: zero everywhere. -/
theorem pay2_apply (r : Fin 8) (c : Fin 128) : k1_pay2 (F := Ideal) (ix2 r c) = 0 := by
  unfold k1_pay2
  show Ideal.ofBits .f32 0x00000000#32 = 0
  exact Ideal.ofBits_zero_f32

/-- The lane sums of a [1024, 1024] block, re-laid as a column, summed along the column and spread over the
    [8, 128] tile: at every entry, the block's total. -/
theorem total_at (w : FVec Ideal S1024x1024 .f32) (r : Fin 8) (c : Fin 128) :
    broadcastTo S8x128 (shapeCast S1x1 (multiReduction .add [0] S1 (shapeCast S1024x1
        (multiReduction .add [1] S1024 w 0x00000000#32 reduces_S1024x1024_S1024 (.inl rfl) rfl) shapeCasts_S1024_S1024x1)
        0x00000000#32 reduces_S1024x1_S1 (.inl rfl) rfl) shapeCasts_S1_S1x1) broadcasts_S1x1_S8x128 (ix2 r c)
      = ∑ p : Fin 1024, ∑ q : Fin 1024, w (ix2 p q) := by
  refine (broadcastTo_apply _ _ (ix2 r c) (ix2 (0 : Fin 1) (0 : Fin 1)) fun ax => ?_).trans ?_
  · match ax with
    | ⟨0, _⟩ => rfl
    | ⟨1, _⟩ => rfl
  refine (Cert.LibColumn.shapeCast_a_a1_apply _ shapeCasts_S1_S1x1 (0 : Fin 1) (0 : Fin 1)).trans ?_
  refine (Ideal.multiReduction_add_single _ _ reduces_S1024x1_S1 _ _ (ix1 (0 : Fin 1))).trans ?_
  refine Finset.sum_congr rfl fun p _ => ?_
  have e : reduces_S1024x1_S1.lift (ix1 (0 : Fin 1)) p = ix2 (⟨p.val, p.isLt⟩ : Fin 1024) (0 : Fin 1) :=
    funext fun a => Fin.ext (by match a with | ⟨0, _⟩ => rfl | ⟨1, _⟩ => rfl)
  refine (congrArg _ e).trans ?_
  refine (Cert.LibColumn.shapeCast_a_a1_apply _ shapeCasts_S1024_S1024x1 _ (0 : Fin 1)).trans ?_
  exact Cert.LibRowSoftmax.multiReduction_add_row w _ reduces_S1024x1024_S1024 _ _ _

/-- The accumulator's update: the tile's total Σ_p Σ_q v37 p q · v13 p q is added at entry (0, 0) only. -/
theorem pay1_apply (v13 v37 : FVec Ideal S1024x1024 .f32) (v56 : Vec Ideal S8x128 .f32) (r : Fin 8) (c : Fin 128) :
    k1_pay1 v13 v37 v56 (ix2 r c)
      = v56 (ix2 r c) + (∑ p : Fin 1024, ∑ q : Fin 1024, v37 (ix2 p q) * v13 (ix2 p q))
          * (if r.val = 0 ∧ c.val = 0 then (1 : EReal) else 0) := by
  unfold k1_pay1
  simp only [shapeCast_self]
  refine (addf_apply _ _ _).trans ?_
  refine congrArg (v56 (ix2 r c) + ·) ?_
  refine (mulf_apply _ _ _).trans ?_
  rw [total_at (mulf v37 v13) r c]
  refine congrArg ((∑ p : Fin 1024, ∑ q : Fin 1024, v37 (ix2 p q) * v13 (ix2 p q)) * ·) ?_
  refine (select_apply _ _ _ _).trans ?_
  refine (select_bit _ (r.val = 0 ∧ c.val = 0) ?_ _ _).trans ?_
  · simp only [andi, cmpi, broadcast]
    rw [iota_single_apply, iota_single_apply, IntOp.andi_eq_one, IntOp.cmpi_eq, IntOp.cmpi_eq,
      counter_eq_zero_iff _ (lt_trans r.isLt (by norm_num)), counter_eq_zero_iff _ (lt_trans c.isLt (by norm_num))]
  · rw [broadcast_apply, broadcast_apply]
    show (if _ then Ideal.ofBits .f32 0x3F800000#32 else Ideal.ofBits .f32 0x00000000#32) = _
    rw [Ideal.ofBits_one_f32, Ideal.ofBits_zero_f32]

/-- One tile's total is the specification's tile sum, once the five blocks are the specification's rows. -/
theorem tile_eq (x0 x1 : Vec Ideal S1024x1024 .bf16) (x2 : Vec Ideal S1x1024 .f32)
    (x3 : Vec Ideal S1024x1 .i32) (x4 : Vec Ideal S1x1024 .i32) (i : grid1.Coords)
    (x : Fin 8192 → Fin 1024 → EReal) (lab : Fin 8192 → BitVec 32) (ti tj : Fin 8)
    (hi0 : (i 0).val = ti.val) (hi1 : (i 1).val = tj.val)
    (h0 : ∀ p k, x0 (ix2 p k) = Cert.PairLoss.probs x (Cert.PairLoss.gidx ti p) k)
    (h1 : ∀ q k, x1 (ix2 q k) = Cert.PairLoss.probs x (Cert.PairLoss.gidx tj q) k)
    (h2 : ∀ q, x2 (ix2 (0 : Fin 1) q) = Cert.PairLoss.selfTerm x (Cert.PairLoss.gidx tj q))
    (h3 : ∀ p, x3 (ix2 p (0 : Fin 1)) = lab (Cert.PairLoss.gidx ti p))
    (h4 : ∀ q, x4 (ix2 (0 : Fin 1) q) = lab (Cert.PairLoss.gidx tj q)) :
    (∑ p : Fin 1024, ∑ q : Fin 1024, k1_pay4 i x0 x1 x2 x3 x4 (ix2 p q) * k1_pay3 x0 x1 x2 (ix2 p q))
      = Cert.PairLoss.tileSum x lab ti tj := by
  unfold Cert.PairLoss.tileSum
  refine Finset.sum_congr rfl fun p _ => Finset.sum_congr rfl fun q _ => ?_
  have hd : k1_pay3 x0 x1 x2 (ix2 p q) = Cert.PairLoss.kl x (Cert.PairLoss.gidx ti p) (Cert.PairLoss.gidx tj q) := by
    rw [pay3_apply, h2, Finset.sum_congr rfl fun k _ => show x0 (ix2 p k) * x1 (ix2 q k)
      = Cert.PairLoss.probs x (Cert.PairLoss.gidx ti p) k * Cert.PairLoss.probs x (Cert.PairLoss.gidx tj q) k by rw [h0, h1]]
    rfl
  have hm : (if x3 (ix2 p (0 : Fin 1)) = x4 (ix2 (0 : Fin 1) q) ∧ ¬((i 0).val * 1024 + p.val = (i 1).val * 1024 + q.val)
      then (1 : EReal) else 0) = Cert.PairLoss.pairMask lab (Cert.PairLoss.gidx ti p) (Cert.PairLoss.gidx tj q) := by
    rw [h3, h4, hi0, hi1]
    unfold Cert.PairLoss.pairMask
    exact if_congr (and_congr_right' (not_congr
      (Fin.val_inj (a := Cert.PairLoss.gidx ti p) (b := Cert.PairLoss.gidx tj q)))) rfl rfl
  rw [pay4_apply, hd, hm]
  rfl

end Cert.KernelIdeal.PairValue

end
-- ==== Proof.IPairAcc.lean ====
/- The second region's running sum, in closed form.

   Along row ti of the 8 × 8 grid the output block starts from zero at column tile 0 and every point adds its tile's
   sum at entry (0, 0) and zero elsewhere.  So after point t = 8·ti + tj the block holds, at (0, 0), the sum of the
   tile sums of row ti over the column tiles 0 … tj, and zero at every other entry. -/
import proofs.«105206_j85383949845128_1_alg».proof.Proof.IPairSteps
import proofs.«105206_j85383949845128_1_alg».proof.Proof.IPairBlocks
import proofs.«105206_j85383949845128_1_alg».proof.Proof.PairPayload

noncomputable section

namespace Cert.KernelIdeal.PairValue

open Idealize.ShloMosaic Idealize.ShloMosaic.TcCoe Idealize.ShloMosaic.ValueIdx Idealize.SL.Sem
open Cert.KernelIdeal Cert.KernelIdeal.Gen Cert.KernelIdeal.Hand
open Cert.PairLoss

variable (m : (ℓ : Loc nD τ sig) → Buf (Elt Ideal) ℓ) (c : Dev nD)

/-- The sum of tile (a, b) of the launch logits and labels; zero outside the 8 × 8 grid. -/
def tileAt (a b : ℕ) : EReal :=
  if h : a < 8 ∧ b < 8 then tileSum (logitsMem m c) (labelsMem m c) ⟨a, h.1⟩ ⟨b, h.2⟩ else 0

theorem tileAt_of_lt (a b : ℕ) (ha : a < 8) (hb : b < 8) :
    tileAt m c a b = tileSum (logitsMem m c) (labelsMem m c) ⟨a, ha⟩ ⟨b, hb⟩ := dif_pos ⟨ha, hb⟩

/-- One accumulation step at point t, entry by entry: the previous contents plus the tile's sum at (0, 0). -/
theorem step_at (t : Fin cfg1.N) (prev : Vec Ideal S8x128 .f32) (r : Fin 8) (cc : Fin 128) :
    stepOf (F := Ideal) (grid1.coords t) (iblk1 (X2 m) c 0 t) (iblk1 (X2 m) c 1 t) (iblk1 (X2 m) c 2 t)
        (iblk1 (X2 m) c 3 t) (iblk1 (X2 m) c 4 t) prev (ix2 r cc)
      = prev (ix2 r cc) + tileAt m c (t.val / 8) (t.val % 8) * (if r.val = 0 ∧ cc.val = 0 then (1 : EReal) else 0) := by
  have hN : t.val < 64 := lt_of_lt_of_eq t.isLt (show cfg1.N = 64 from N_1)
  have hdiv : t.val / 8 < 8 := by omega
  have hmod : t.val % 8 < 8 := by omega
  obtain ⟨hc0, hc1⟩ := coords_of t
  unfold stepOf
  refine (pay1_apply _ _ prev r cc).trans ?_
  have htile := tile_eq (iblk1 (F := Ideal) (X2 m) c 0 t) (iblk1 (F := Ideal) (X2 m) c 1 t) (iblk1 (F := Ideal) (X2 m) c 2 t)
    (iblk1 (F := Ideal) (X2 m) c 3 t) (iblk1 (F := Ideal) (X2 m) c 4 t) (grid1.coords t) (logitsMem m c) (labelsMem m c)
    ⟨t.val / 8, hdiv⟩ ⟨t.val % 8, hmod⟩ hc0 hc1
    (fun p k => pair_block0 m c t p k (gidx ⟨t.val / 8, hdiv⟩ p) rfl)
    (fun q k => pair_block1 m c t q k (gidx ⟨t.val % 8, hmod⟩ q) rfl)
    (fun q => pair_block2 m c t q (gidx ⟨t.val % 8, hmod⟩ q) rfl)
    (fun p => pair_block3 m c t p (gidx ⟨t.val / 8, hdiv⟩ p) rfl)
    (fun q => pair_block4 m c t q (gidx ⟨t.val % 8, hmod⟩ q) rfl)
  rw [htile, tileAt_of_lt m c _ _ hdiv hmod]

/-- Adding S at (0, 0) only, to a block that holds A at (0, 0) and zero elsewhere. -/
theorem add_cell (P : Prop) [Decidable P] (A S : EReal) :
    (if P then A else 0) + S * (if P then (1 : EReal) else 0) = if P then A + S else 0 := by
  by_cases h : P
  · rw [if_pos h, if_pos h, if_pos h, mul_one]
  · rw [if_neg h, if_neg h, if_neg h, mul_zero, add_zero]

/-- Adding S at (0, 0) only, to the zero block. -/
theorem first_cell (P : Prop) [Decidable P] (S : EReal) :
    (0 : EReal) + S * (if P then (1 : EReal) else 0) = if P then S else 0 := by
  by_cases h : P
  · rw [if_pos h, if_pos h, mul_one, zero_add]
  · rw [if_neg h, if_neg h, mul_zero, add_zero]

/-- A sum over the first k + 1 of 8 column tiles, as a sum over all 8 with the later ones left out. -/
theorem range_sum_eq (g : ℕ → EReal) (k : ℕ) (hk : k < 8) :
    ∑ j ∈ Finset.range (k + 1), g j = ∑ j : Fin 8, if j.val ≤ k then g j.val else 0 := by
  rw [Fin.sum_univ_eq_sum_range (fun j => if j ≤ k then g j else 0) 8, ← Finset.sum_filter]
  refine Finset.sum_congr ?_ fun _ _ => rfl
  ext j
  simp only [Finset.mem_range, Finset.mem_filter]
  omega

/-- The running content after position n, by induction along the grid. -/
theorem acc_closed_nat : ∀ (n : ℕ) (hn : n < cfg1.N) (r : Fin 8) (cc : Fin 128),
    accAt (F := Ideal) (X2 m) c n hn (ix2 r cc)
      = if r.val = 0 ∧ cc.val = 0 then ∑ j ∈ Finset.range (n % 8 + 1), tileAt m c (n / 8) j else 0 := by
  intro n
  induction n with
  | zero =>
    intro hn r cc
    rw [accAt_first_eq (X2 m) c ⟨0, hn⟩ (Nat.zero_mod _), step_at m c ⟨0, hn⟩, pay2_apply]
    show (0 : EReal) + tileAt m c (0 / 8) (0 % 8) * _ = _
    rw [show 0 % 8 + 1 = 1 from rfl, Finset.sum_range_one]
    exact first_cell _ _
  | succ n ih =>
    intro hn r cc
    have hN : n + 1 < 64 := lt_of_lt_of_eq hn (show cfg1.N = 64 from N_1)
    by_cases h0 : (n + 1) % 8 = 0
    · rw [accAt_first_eq (X2 m) c ⟨n + 1, hn⟩ h0, step_at m c ⟨n + 1, hn⟩, pay2_apply]
      show (0 : EReal) + tileAt m c ((n + 1) / 8) ((n + 1) % 8) * _ = _
      rw [h0, show 0 + 1 = 1 from rfl, Finset.sum_range_one]
      exact first_cell _ _
    · rw [accAt_later_eq (X2 m) c ⟨n + 1, hn⟩ h0, step_at m c ⟨n + 1, hn⟩]
      show accAt (F := Ideal) (X2 m) c n _ (ix2 r cc) + tileAt m c ((n + 1) / 8) ((n + 1) % 8) * _ = _
      rw [ih (Nat.lt_of_succ_lt hn) r cc]
      have e1 : n / 8 = (n + 1) / 8 := by omega
      have e2 : n % 8 + 1 = (n + 1) % 8 := by omega
      rw [e1, e2, Finset.sum_range_succ]
      exact add_cell _ _ _

/-- After point t the output block holds, at (0, 0), the tile sums of row t / 8 over the column tiles 0 … t % 8,
    and zero elsewhere. -/
theorem acc_closed (t : Fin cfg1.N) (r : Fin 8) (cc : Fin 128) :
    accAt (F := Ideal) (X2 m) c t.val t.isLt (ix2 r cc)
      = if r.val = 0 ∧ cc.val = 0 then
          ∑ j : Fin 8, (if j.val ≤ t.val % 8 then
            Cert.PairLoss.tileSum (logitsMem m c) (labelsMem m c)
              ⟨t.val / 8, Nat.div_lt_of_lt_mul (lt_of_lt_of_eq t.isLt (show cfg1.N = 8 * 8 from N_1))⟩ j else 0)
        else 0 := by
  have hN : t.val < 64 := lt_of_lt_of_eq t.isLt (show cfg1.N = 64 from N_1)
  have hdiv : t.val / 8 < 8 := by omega
  rw [acc_closed_nat m c t.val t.isLt r cc, range_sum_eq (tileAt m c (t.val / 8)) (t.val % 8) (by omega)]
  refine if_congr Iff.rfl (Finset.sum_congr rfl fun j _ => if_congr Iff.rfl ?_ rfl) rfl
  exact tileAt_of_lt m c (t.val / 8) j.val hdiv j.isLt

end Cert.KernelIdeal.PairValue

end
-- ==== Proof.IPairArray.lean ====
/-
  The second region's result array, from the blocks its grid points write back.

  The output window of the second region is an 8 × 128 block; at point t = 8·ti + tj it addresses block (ti, 0)
  of the 64 × 128 result, so the eight points of a grid row share one block and the block is written back once,
  after the row's last point (tj = 7).  By then cell (0, 0) of the staging buffer has collected the eight tiles'
  sums of that row and every other cell is 0.  Row R of the result lies in block R / 8, at row R % 8 of the
  block: so the result holds Σ_tj tileSum (R / 8) tj at (R, 0) when 8 divides R, and 0 everywhere else.
-/
import proofs.«105206_j85383949845128_1_alg».proof.Proof.IPairBlocks
import proofs.«105206_j85383949845128_1_alg».proof.Proof.IPairSteps
import proofs.«105206_j85383949845128_1_alg».proof.Proof.IPairAcc

noncomputable section

namespace Cert.KernelIdeal.PairValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.StatsValue
open Cert.LibRowSoftmax Cert.PairLoss

variable (m : (ℓ : Loc nD τ sig) → Buf (Elt Ideal) ℓ) (c : Dev nD)

/-- The whole result as a function of the launch memory: the row sums of the tiles at the rows divisible by 8,
    column 0; zero elsewhere. -/
private def sumsArr : S64x128.Idx → EReal := fun idx =>
  if (idx 0).val % 8 = 0 ∧ (idx 1).val = 0 then
    ∑ tj : Fin 8, tileSum (logitsMem m c) (labelsMem m c) ⟨(idx 0).val / 8, by have h : (idx 0).val < 64 := (idx 0).isLt; omega⟩ tj
  else 0

/-- At point t the output window addresses block (t / 8, 0) of the result. -/
private theorem sumsBlockIndex : ∀ t : Fin cfg1.N,
    win1_5.index t (0 : Fin 2) = t.val / 8 ∧ win1_5.index t (1 : Fin 2) = 0 :=
  (by decide +kernel : ∀ t : Fin grid1.N, _)

/-- What a point that writes back (the last of its grid row) writes is its block of sumsArr. -/
private theorem flushedSums (t : Fin cfg1.N) (hf : (cfg1.win 5).flush t = true) :
    (dat1 (F := Ideal) (X2 m) c).flushed 5 t = ((cfg1.win 5).blk t).view.read (Elt Ideal) (sumsArr m c) := by
  have h7 : t.val % 8 = 7 := (flush1_5 t).mp hf
  have hN : cfg1.N = 64 := N_1
  have ht := t.isLt
  show (cfg1.win 5).cut (grid1.coords t) ((dat1 (F := Ideal) (X2 m) c).after 5 t) = _
  rw [after1_5]
  obtain ⟨e0, e1⟩ := sumsBlockIndex t
  funext y
  obtain ⟨r, cc, rfl⟩ : ∃ (r : Fin 8) (cc : Fin 128), y = ix2 r cc := ⟨y 0, y 1, eq_ix2 y⟩
  have hr := r.isLt
  have hlt : t.val / 8 * 8 + r.val < 64 := by omega
  rw [View.read_apply]
  have hemb : ((cfg1.win 5).blk t).view.emb (ix2 r cc) = (ix2 (⟨t.val / 8 * 8 + r.val, hlt⟩ : Fin 64) cc : S64x128.Idx) := by
    funext a; apply Fin.ext
    match a with
    | ⟨0, _⟩ => show win1_5.index t (0 : Fin 2) * 8 + 1 * r.val = t.val / 8 * 8 + r.val; omega
    | ⟨1, _⟩ => show win1_5.index t (1 : Fin 2) * 128 + 1 * cc.val = cc.val; omega
  rw [hemb]
  refine (acc_closed m c t r cc).trans ?_
  show _ = if (t.val / 8 * 8 + r.val) % 8 = 0 ∧ cc.val = 0 then
      ∑ tj : Fin 8, tileSum (logitsMem m c) (labelsMem m c) ⟨(t.val / 8 * 8 + r.val) / 8, _⟩ tj else 0
  by_cases h : r.val = 0 ∧ cc.val = 0
  · rw [if_pos h, if_pos ⟨by omega, h.2⟩]
    refine Finset.sum_congr rfl fun j _ => ?_
    rw [if_pos (by have := j.isLt; omega)]
    exact congrArg (fun ti : Fin 8 => tileSum (logitsMem m c) (labelsMem m c) ti j) (Fin.ext (by show t.val / 8 = (t.val / 8 * 8 + r.val) / 8; omega))
  · rw [if_neg h, if_neg (fun h' => h ⟨by omega, h'.2⟩)]

/-- An index of the result lies in point t's block iff each coordinate lies in the block's range. -/
private theorem memBlockSums (t : Fin cfg1.N) (i : S64x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v4).slice (win1_5.rect t)).set ↔ _
  rw [View.set_slice_whole, Rect.mem_set_unit]
  exact Iff.rfl

/-- Row R of the result is covered by the last point of grid row R / 8. -/
private theorem coverSums (i : S64x128.Idx) :
    ∃ t : Fin cfg1.N, (cfg1.win 5).flush t = true ∧ i ∈ ((cfg1.win 5).blk t).view.set := by
  have h0 : (i 0).val < 64 := (i 0).isLt
  have h1 : (i 1).val < 128 := (i 1).isLt
  have hN : cfg1.N = 64 := N_1
  have hlt : 8 * ((i 0).val / 8) + 7 < cfg1.N := by rw [hN]; omega
  refine ⟨⟨8 * ((i 0).val / 8) + 7, hlt⟩, (flush1_5 _).mpr (by show (8 * ((i 0).val / 8) + 7) % 8 = 7; omega), ?_⟩
  rw [memBlockSums]
  obtain ⟨e0, e1⟩ := sumsBlockIndex ⟨8 * ((i 0).val / 8) + 7, hlt⟩
  intro a
  match a with
  | ⟨0, _⟩ => show win1_5.index _ (0 : Fin 2) * 8 ≤ (i 0).val ∧ (i 0).val < win1_5.index _ (0 : Fin 2) * 8 + 8; rw [e0]; show (8 * ((i 0).val / 8) + 7) / 8 * 8 ≤ _ ∧ _ < (8 * ((i 0).val / 8) + 7) / 8 * 8 + 8; omega
  | ⟨1, _⟩ => show win1_5.index _ (1 : Fin 2) * 128 ≤ (i 1).val ∧ (i 1).val < win1_5.index _ (1 : Fin 2) * 128 + 128; rw [e1]; omega

/-- The result array after the second region. -/
private theorem sumsArray : (dat1 (F := Ideal) (X2 m) c).arrAt 5 cfg1.N = sumsArr m c :=
  (dat1 (F := Ideal) (X2 m) c).arrAt_eq_of_cover 5 (sumsArr m c) (fun t hf => flushedSums m c t hf) (coverSums)

theorem sums_final (Rr : Fin 64) (Cc : Fin 128) :
    (sumsOut (F := Ideal) m c : S64x128.Idx → EReal) (ix2 Rr Cc)
      = if Rr.val % 8 = 0 ∧ Cc.val = 0 then ∑ tj : Fin 8, Cert.PairLoss.tileSum (logitsMem m c) (labelsMem m c) ⟨Rr.val / 8, by omega⟩ tj else 0 := by
  unfold sumsOut
  exact congrFun (sumsArray m c) (ix2 Rr Cc)

end Cert.KernelIdeal.PairValue

end
-- ==== Proof.IPairTotal.lean ====
/- The kernel program's result is the loss.

   After the second region the [64, 128] array holds, in row 8·ti at column 0, the sum over tj of the tile sums of
   row ti of the grid, and zero everywhere else.  The host adds all its entries from zero — the sum over the 64 tiles
   of the tiles' sums, which is the loss's double sum — and divides by 8192. -/
import proofs.«105206_j85383949845128_1_alg».proof.Proof.IRunA
import proofs.«105206_j85383949845128_1_alg».proof.Proof.IPairAcc
import proofs.«105206_j85383949845128_1_alg».proof.Proof.IPairArray
import proofs.«105206_j85383949845128_1_alg».proof.Proof.LibBlockSum
import Idealize.ShloMosaic.Lib.StableHlo.Run

noncomputable section

namespace Cert.KernelIdeal.PairValue

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand
open Cert.PairLoss Cert.LibBlockSum

/-- The host's sum over both axes of a [64, 128] array, from the zero word: the double sum of its entries. -/
theorem host_total (y : S64x128.Idx → EReal) (a : S_.Idx) :
    Host.reduceAdd (F := Ideal) (y : (⟨S64x128, .f32⟩ : BufTy).Contents (Elt Ideal)) (constant (F := Ideal) S_ .f32 0x00000000#32)
        reducesTo_S64x128_S_d0_1 h_S_ a
      = ∑ Rr : Fin 64, ∑ Cc : Fin 128, y (ix2 Rr Cc) := by
  simp only [Host.reduceAdd, Ideal.hostReduceAdd_def]
  rw [Ideal.hostReduceAdd_total reducesTo_S64x128_S_d0_1 (fun b => b.elim0)]
  show Ideal.ofBits .f32 0x00000000#32 + _ = _
  rw [Ideal.ofBits_zero_f32, zero_add]
  exact sum_idx2 _

/-- A sum over 64 rows of values that sit in the first row of each block of 8: the sum of the 8 values. -/
theorem sum_heads (T : ℕ → EReal) :
    ∑ Rr : Fin 64, (if Rr.val % 8 = 0 then T (Rr.val / 8) else 0) = ∑ ti : Fin 8, T ti.val := by
  rw [sum_eq_blocks 8 8 (by norm_num) (fun Rr : Fin 64 => if Rr.val % 8 = 0 then T (Rr.val / 8) else 0),
    ← Fin.sum_univ_eq_sum_range (fun t => block 8 (fun Rr : Fin 64 => if Rr.val % 8 = 0 then T (Rr.val / 8) else 0) t) 8]
  refine Finset.sum_congr rfl fun ti _ => ?_
  unfold block
  rw [Finset.sum_eq_single (0 : Fin 8)]
  · rw [total_of_lt _ _ (show 8 * ti.val + (0 : Fin 8).val < 64 by omega)]
    show (if (8 * ti.val + (0 : Fin 8).val) % 8 = 0 then T ((8 * ti.val + (0 : Fin 8).val) / 8) else 0) = T ti.val
    rw [if_pos (by omega)]
    exact congrArg T (by omega)
  · intro r _ hr
    have hr' : r.val ≠ 0 := fun h => hr (Fin.ext h)
    rw [total_of_lt _ _ (show 8 * ti.val + r.val < 64 by omega)]
    show (if (8 * ti.val + r.val) % 8 = 0 then T ((8 * ti.val + r.val) / 8) else 0) = 0
    rw [if_neg (by omega)]
  · intro h; exact absurd (Finset.mem_univ _) h

section Tail

variable (m : (ℓ : Loc nD τ sig) → Buf (Elt Ideal) ℓ) (c : Dev nD)

/-- All entries added up, of a [64, 128] array that holds row ti's tile sums in row 8·ti at column 0 and zero
    elsewhere: the loss's double sum. -/
theorem sums_total (y : S64x128.Idx → EReal)
    (hy : ∀ (Rr : Fin 64) (Cc : Fin 128), y (ix2 Rr Cc)
      = if Rr.val % 8 = 0 ∧ Cc.val = 0 then
          ∑ tj : Fin 8, Cert.PairLoss.tileSum (logitsMem m c) (labelsMem m c) ⟨Rr.val / 8, by omega⟩ tj
        else 0) :
    ∑ Rr : Fin 64, ∑ Cc : Fin 128, y (ix2 Rr Cc)
      = ∑ i : Fin 8192, ∑ j : Fin 8192, term (logitsMem m c) (labelsMem m c) i j := by
  have hrow : ∀ Rr : Fin 64, ∑ Cc : Fin 128, y (ix2 Rr Cc)
      = if Rr.val % 8 = 0 then (fun a => ∑ tj : Fin 8, tileAt m c a tj.val) (Rr.val / 8) else 0 := by
    intro Rr
    have hR : Rr.val / 8 < 8 := by omega
    rw [Finset.sum_eq_single (0 : Fin 128)]
    · rw [hy Rr 0]
      by_cases h : Rr.val % 8 = 0
      · rw [if_pos ⟨h, rfl⟩, if_pos h]
        exact Finset.sum_congr rfl fun tj _ => (tileAt_of_lt m c (Rr.val / 8) tj.val hR tj.isLt).symm
      · rw [if_neg (fun hh => h hh.1), if_neg h]
    · intro Cc _ hC
      rw [hy Rr Cc, if_neg (fun hh => hC (Fin.ext hh.2))]
    · intro h; exact absurd (Finset.mem_univ _) h
  rw [Finset.sum_congr rfl fun Rr _ => hrow Rr, sum_heads (fun a => ∑ tj : Fin 8, tileAt m c a tj.val),
    ← tiles_total (logitsMem m c) (labelsMem m c)]
  exact Finset.sum_congr rfl fun ti _ => Finset.sum_congr rfl fun tj _ => tileAt_of_lt m c ti.val tj.val ti.isLt tj.isLt

/-- The program's result: the loss of the launch logits and labels. -/
theorem result_eq_loss :
    (W4 (F := Ideal) m c main_v6 : S_.Idx → EReal) = fun _ => Cert.PairLoss.loss (logitsMem m c) (labelsMem m c) := by
  dsimp only [W4, hostOps2]
  after_results
  rw [W3_sums]
  funext a
  show Ideal.div (Host.reduceAdd (F := Ideal) (sumsOut (F := Ideal) m c) (constant (F := Ideal) S_ .f32 0x00000000#32)
    reducesTo_S64x128_S_d0_1 h_S_ a) (Ideal.ofBits .f32 0x46000000#32) = _
  rw [host_total, sums_total m c _ (sums_final m c)]
  rfl

end Tail

end Cert.KernelIdeal.PairValue

end
-- ==== Proof.RefValueA.lean ====
/- The reference program's row statistics, read at an index.

   With z i k = x i k / 4, the reference takes M i = max(-inf, max over k of z i k taken from -inf), which is
   the maximum of the row taken from -inf; e i k = exp (z i k - M i); the row sum of e from zero; the quotient,
   which is the softmax of the row; and adds the small constant: P i k.  Then s j is the row sum of
   P j k · log P j k from zero, divided by 1024.  Each step is read at one index from the operands at one index. -/
import proofs.«105206_j85383949845128_1_alg».proof.Proof.Gen.ReferenceIdeal.Read
import proofs.«105206_j85383949845128_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.LibRowSoftmax Cert.PairLoss

/-- The host's maximum along the rows of an [a, b] matrix, at row p: the largest of the initial value and the
    row's entries. -/
theorem hostReduce_max_row2 {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p) = maxFrom (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

/-- The logits as a function of the two coordinates. -/
abbrev logits (x0 : (⟨S8192x1024, .f32⟩ : BufTy).Contents (Elt Ideal)) : Fin 8192 → Fin 1024 → EReal :=
  fun i k => x0 (ix2 i k)

variable (x0 : (⟨S8192x1024, .f32⟩ : BufTy).Contents (Elt Ideal))

/-- z i k = x i k / 4. -/
theorem v1_at (i : Fin 8192) (k : Fin 1024) :
    val_main_v1 (F := Ideal) x0 (ix2 i k) = scaled (logits x0) i k := by
  rw [val_main_v1_apply, val_main_v0_apply, val_main_cst_apply]; rfl

/-- The reduction's value at row i is the row's maximum taken from -inf. -/
theorem v2_at (i : Fin 8192) :
    val_main_v2 (F := Ideal) x0 (ix1 i) = maxFrom wNegInf (scaled (logits x0) i) := by
  unfold val_main_v2
  refine (hostReduce_max_row2 _ _ reducesTo_S8192x1024_S8192_d1 (by decide) h_S_ i).trans ?_
  exact congrArg (maxFrom wNegInf) (funext fun k => v1_at x0 i k)

/-- Taking the larger of -inf and that maximum changes nothing. -/
theorem v4_at (i : Fin 8192) :
    val_main_v4 (F := Ideal) x0 (ix1 i) = maxFrom wNegInf (scaled (logits x0) i) := by
  rw [val_main_v4_apply, val_main_v3_apply, val_main_cst_1_apply, v2_at]
  exact max_maxFrom wNegInf _

/-- The maximum spread back over the row. -/
theorem v6_at (i : Fin 8192) (k : Fin 1024) :
    val_main_v6 (F := Ideal) x0 (ix2 i k) = maxFrom wNegInf (scaled (logits x0) i) := by
  rw [val_main_v6_apply, val_main_v5_apply]
  have e : idx_main_v5 (idx_main_v6 (ix2 i k)) = ix1 i := funext fun a => by match a with | ⟨0, _⟩ => rfl
  rw [e]; exact v4_at x0 i

/-- e i k = exp (z i k - M i). -/
theorem v8_at (i : Fin 8192) (k : Fin 1024) :
    val_main_v8 (F := Ideal) x0 (ix2 i k)
      = Ideal.exp (scaled (logits x0) i k - maxFrom wNegInf (scaled (logits x0) i)) := by
  rw [val_main_v8_apply, val_main_v7_apply, v1_at, v6_at]; rfl

/-- The row sum of e, from zero. -/
theorem v9_at (i : Fin 8192) :
    val_main_v9 (F := Ideal) x0 (ix1 i)
      = ∑ k : Fin 1024, Ideal.exp (scaled (logits x0) i k - maxFrom wNegInf (scaled (logits x0) i)) := by
  rw [val_main_v9_apply, val_main_cst_2_apply, Ideal.ofBits_def, Ideal.ofBits_zero_f32, zero_add]
  refine Finset.sum_congr rfl fun k _ => ?_
  have e : idx_main_v9 (ix1 i) k = ix2 i k := funext fun a => by match a with | ⟨0, _⟩ => rfl | ⟨1, _⟩ => rfl
  rw [e]; exact v8_at x0 i k

/-- The row sum spread back over the row. -/
theorem v11_at (i : Fin 8192) (k : Fin 1024) :
    val_main_v11 (F := Ideal) x0 (ix2 i k)
      = ∑ k' : Fin 1024, Ideal.exp (scaled (logits x0) i k' - maxFrom wNegInf (scaled (logits x0) i)) := by
  rw [val_main_v11_apply, val_main_v10_apply]
  have e : idx_main_v10 (idx_main_v11 (ix2 i k)) = ix1 i := funext fun a => by match a with | ⟨0, _⟩ => rfl
  rw [e]; exact v9_at x0 i

/-- The quotient is the softmax of the row. -/
theorem v12_at (i : Fin 8192) (k : Fin 1024) :
    val_main_v12 (F := Ideal) x0 (ix2 i k) = softmaxFrom wNegInf (scaled (logits x0) i) k := by
  rw [val_main_v12_apply, v8_at, v11_at]; rfl

/-- P i k. -/
theorem v14_at (i : Fin 8192) (k : Fin 1024) :
    val_main_v14 (F := Ideal) x0 (ix2 i k) = probs (logits x0) i k := by
  rw [val_main_v14_apply, v12_at, val_main_v13_apply, val_main_cst_3_apply]; rfl

/-- P i k · log P i k. -/
theorem v16_at (i : Fin 8192) (k : Fin 1024) :
    val_main_v16 (F := Ideal) x0 (ix2 i k) = probs (logits x0) i k * Ideal.log (probs (logits x0) i k) := by
  rw [val_main_v16_apply, val_main_v15_apply, v14_at]; rfl

/-- Its row sum, from zero. -/
theorem v17_at (j : Fin 8192) :
    val_main_v17 (F := Ideal) x0 (ix1 j)
      = ∑ k : Fin 1024, probs (logits x0) j k * Ideal.log (probs (logits x0) j k) := by
  rw [val_main_v17_apply, val_main_cst_4_apply, Ideal.ofBits_def, Ideal.ofBits_zero_f32, zero_add]
  refine Finset.sum_congr rfl fun k _ => ?_
  have e : idx_main_v17 (ix1 j) k = ix2 j k := funext fun a => by match a with | ⟨0, _⟩ => rfl | ⟨1, _⟩ => rfl
  rw [e]; exact v16_at x0 j k

/-- s j. -/
theorem v19_at (j : Fin 8192) :
    val_main_v19 (F := Ideal) x0 (ix1 j) = selfTerm (logits x0) j := by
  rw [val_main_v19_apply, v17_at, val_main_v18_apply, val_main_cst_5_apply]; rfl

end Cert.ReferenceIdeal.RefValue

end
-- ==== Proof.RefValueB.lean ====
/- The reference program's pair statistics, read at an index.

   The transpose followed by the contraction over the shared axis gives, at (i, j), the sum over k of
   P i k · P j k; divided by 1024 it is the cross term c i j, and the self term s j spread down the columns minus
   it is d i j.  The two label broadcasts compared give "labels agree"; the row counter plus zero compared with the
   column counter gives "i = j" (counters below 2^32 are equal exactly when the indices are); the conjunction of
   the first with the negation of the second, converted to a float, is 1 when the pair counts and 0 otherwise. -/
import proofs.«105206_j85383949845128_1_alg».proof.Proof.RefValueA

noncomputable section

namespace Cert.ReferenceIdeal.RefValue

open Cert.ReferenceIdeal Cert.ReferenceIdeal.Gen Cert.ReferenceIdeal.Read Idealize.ShloMosaic Idealize.ShloMosaic.ValueIdx
open Cert.LibRowSoftmax Cert.PairLoss

variable (x0 : (⟨S8192x1024, .f32⟩ : BufTy).Contents (Elt Ideal)) (x1 : (⟨S8192, .i32⟩ : BufTy).Contents (Elt Ideal))

/-- The transposed P at (k, j) is P j k. -/
theorem v20_at (k : Fin 1024) (j : Fin 8192) :
    val_main_v20 (F := Ideal) x0 (ix2 k j) = probs (logits x0) j k := by
  rw [val_main_v20_apply]
  have e : idx_main_v20 (ix2 k j) = ix2 j k := funext fun a => by match a with | ⟨0, _⟩ => rfl | ⟨1, _⟩ => rfl
  rw [e]; exact v14_at x0 j k

/-- The contraction at (i, j): the sum over k of P i k · P j k. -/
theorem v21_at (i j : Fin 8192) :
    val_main_v21 (F := Ideal) x0 (ix2 i j) = ∑ k : Fin 1024, probs (logits x0) i k * probs (logits x0) j k := by
  rw [val_main_v21_apply]
  refine Finset.sum_congr rfl fun k _ => ?_
  have el : lidx_main_v21 (ix2 i j) k = ix2 i k := funext fun a => by match a with | ⟨0, _⟩ => rfl | ⟨1, _⟩ => rfl
  have er : ridx_main_v21 (ix2 i j) k = ix2 k j := funext fun a => by match a with | ⟨0, _⟩ => rfl | ⟨1, _⟩ => rfl
  rw [el, er, v14_at, v20_at]

/-- c i j. -/
theorem v23_at (i j : Fin 8192) :
    val_main_v23 (F := Ideal) x0 (ix2 i j) = cross (logits x0) i j := by
  rw [val_main_v23_apply, v21_at, val_main_v22_apply, val_main_cst_6_apply]; rfl

/-- The self term spread down the columns: at (i, j) it is s j. -/
theorem v25_at (i j : Fin 8192) :
    val_main_v25 (F := Ideal) x0 (ix2 i j) = selfTerm (logits x0) j := by
  rw [val_main_v25_apply, val_main_v24_apply]
  have e : idx_main_v24 (idx_main_v25 (ix2 i j)) = ix1 j := funext fun a => by match a with | ⟨0, _⟩ => rfl
  rw [e]; exact v19_at x0 j

/-- d i j = s j - c i j. -/
theorem v26_at (i j : Fin 8192) :
    val_main_v26 (F := Ideal) x0 (ix2 i j) = kl (logits x0) i j := by
  rw [val_main_v26_apply, v25_at, v23_at]; rfl

/-- The labels as a function of the coordinate. -/
abbrev labels (x1 : (⟨S8192, .i32⟩ : BufTy).Contents (Elt Ideal)) : Fin 8192 → BitVec 32 :=
  fun i => x1 (ix1 i)

/-- The labels spread along the rows: at (i, j) the label of i. -/
theorem v29_at (i j : Fin 8192) : val_main_v29 (F := Ideal) x1 (ix2 i j) = labels x1 i := by
  rw [val_main_v29_apply, val_main_v27_apply]
  have e : idx_main_v27 (idx_main_v29 (ix2 i j)) = ix1 i := funext fun a => by match a with | ⟨0, _⟩ => rfl
  rw [e]

/-- The labels spread down the columns: at (i, j) the label of j. -/
theorem v30_at (i j : Fin 8192) : val_main_v30 (F := Ideal) x1 (ix2 i j) = labels x1 j := by
  rw [val_main_v30_apply, val_main_v28_apply]
  have e : idx_main_v28 (idx_main_v30 (ix2 i j)) = ix1 j := funext fun a => by match a with | ⟨0, _⟩ => rfl
  rw [e]

/-- The 32-bit counters of two indices below 8192, the first with zero added, are equal exactly when the
    indices are. -/
theorem counter_eq_iff (i j : Fin 8192) :
    IntOp.addi (BitVec.ofNat 32 i.val) 0#32 = BitVec.ofNat 32 j.val ↔ i = j := by
  have hi := i.isLt
  have hj := j.isLt
  unfold IntOp.addi
  rw [BitVec.add_zero, ← BitVec.toNat_inj, BitVec.toNat_ofNat, BitVec.toNat_ofNat,
    Nat.mod_eq_of_lt (by omega), Nat.mod_eq_of_lt (by omega)]
  exact Fin.val_inj

/-- A one-bit word read unsigned as a float is 1 when the word is 1 and 0 otherwise. -/
theorem uitofp_bit (b : BitVec 1) (P : Prop) [Decidable P] (h : b = 1#1 ↔ P) :
    FloatOps.uitofp (F := Ideal) .f32 b = if P then 1 else 0 := by
  show ((b.toNat : ℝ) : EReal) = _
  by_cases hP : P
  · rw [if_pos hP, h.mpr hP]; simp
  · rw [if_neg hP, eq_zero_of_ne_one (fun hb => hP (h.mp hb))]; simp

/-- The mask at (i, j): 1 when the labels agree and i ≠ j, else 0. -/
theorem v39_at (i j : Fin 8192) :
    val_main_v39 (F := Ideal) x1 (ix2 i j) = pairMask (labels x1) i j := by
  rw [val_main_v39_apply]
  refine uitofp_bit _ _ ?_
  rw [val_main_v38_apply, IntOp.andi_eq_one, val_main_v31_apply, IntOp.cmpi_eq, v29_at, v30_at,
    val_main_v37_apply, IntOp.not_eq_one, val_main_v36_apply, IntOp.cmpi_eq, val_main_v35_apply,
    val_main_v32_apply, val_main_v34_apply, val_main_c_apply, val_main_v33_apply]
  exact and_congr_right fun _ => not_congr (counter_eq_iff i j)

end Cert.ReferenceIdeal.RefValue

end
-- ==== Proof.RefValue.lean ====
/- The reference program's result is the loss.

   At (i, j) the two products give [pair counts] · d i j · d i j; the total over both axes from zero is the double
   sum over the coordinates; divided by 8192 it is the loss of the specification. -/
import proofs.«105206_j85383949845128_1_alg».proof.Proof.RefValueB

noncomputable section

namespace Cert.ReferenceIdeal.RefValue

open Cert.ReferenceIdeal Cert.ReferenceIdeal.Gen Cert.ReferenceIdeal.Read Idealize.ShloMosaic Idealize.ShloMosaic.ValueIdx
open Cert.LibRowSoftmax Cert.PairLoss

/-- One pair's contribution at (i, j). -/
theorem v41_at (x0 : (⟨S8192x1024, .f32⟩ : BufTy).Contents (Elt Ideal)) (x1 : (⟨S8192, .i32⟩ : BufTy).Contents (Elt Ideal))
    (i j : Fin 8192) :
    val_main_v41 (F := Ideal) x0 x1 (ix2 i j) = term (logits x0) (labels x1) i j := by
  rw [val_main_v41_apply, val_main_v40_apply, v39_at, v26_at]; rfl

/-- The total over both axes, from zero: the double sum of the contributions. -/
theorem v42_at (x0 : (⟨S8192x1024, .f32⟩ : BufTy).Contents (Elt Ideal)) (x1 : (⟨S8192, .i32⟩ : BufTy).Contents (Elt Ideal))
    (a : S_.Idx) :
    val_main_v42 (F := Ideal) x0 x1 a = ∑ i : Fin 8192, ∑ j : Fin 8192, term (logits x0) (labels x1) i j := by
  rw [val_main_v42_apply, val_main_cst_7_apply, Ideal.ofBits_def, Ideal.ofBits_zero_f32, zero_add]
  refine (sum_idx2 _).trans ?_
  exact Finset.sum_congr rfl fun i _ => Finset.sum_congr rfl fun j _ => v41_at x0 x1 i j

/-- The reference program's result is the loss of the logits and the labels. -/
theorem val_eq_loss (x0 : (⟨Cert.ReferenceIdeal.S8192x1024, .f32⟩ : BufTy).Contents (Elt Ideal)) (x1 : (⟨Cert.ReferenceIdeal.S8192, .i32⟩ : BufTy).Contents (Elt Ideal)) :
    Cert.ReferenceIdeal.Read.val_main_v43 (F := Ideal) x0 x1
      = fun _ => Cert.PairLoss.loss (fun i k => x0 (Idealize.ShloMosaic.ValueIdx.ix2 i k)) (fun i => x1 (Idealize.ShloMosaic.ValueIdx.ix1 i)) := by
  funext a
  rw [val_main_v43_apply, v42_at, val_main_cst_8_apply]; rfl

end Cert.ReferenceIdeal.RefValue

end
-- ==== Proof.lean ====
/- The five claims of this certificate.

   The kernel program runs two pipelined kernel regions: the first turns every row of the logits into P = softmax(x / 4)
   + a small constant and its self term s = (Σ_k P log P) / 1024; the second walks the 8 × 8 grid of 1024 × 1024 tiles
   of pairs of rows, forms d = s_j - (Σ_k P_i P_j) / 1024 on each tile, masks the pairs whose labels differ or that
   lie on the diagonal, and accumulates each row of tiles' sum of squares in one cell of its output; the host adds the
   64 × 128 output up and divides by 8192.  The reference computes the same loss from one 8192 × 8192 matrix.

   Frames: for either kernel program the run is four segments — region, host re-layouts, region, host sum — each kernel
   body run on arbitrary whole staging buffers and the buffers' contents tracked from segment to segment; both argument
   arrays are only read.  The reference is a straight-line host program.
   Idealization: the ideal pass rewrote nothing, so nothing is owed for it.
   Equality at the exact reading: both results are the one function `Cert.PairLoss.loss` of the logits and labels — on the
   kernel's side because the tiles' sums, added in any grouping, are the double sum over all pairs (addition of extended
   reals is commutative and associative, a product with the zero off cell (0, 0) is zero); no finiteness of the inputs is
   used. -/
import proofs.«105206_j85383949845128_1_alg».proof.Defs
import proofs.«105206_j85383949845128_1_alg».proof.Proof.Gen.Kernel
import proofs.«105206_j85383949845128_1_alg».proof.Proof.Gen.Kernel.Skeleton
import proofs.«105206_j85383949845128_1_alg».proof.Proof.Gen.Kernel.Launch
import proofs.«105206_j85383949845128_1_alg».proof.Proof.Gen.Kernel.Points
import proofs.«105206_j85383949845128_1_alg».proof.Proof.Gen.KernelIdeal
import proofs.«105206_j85383949845128_1_alg».proof.Proof.Gen.KernelIdeal.Skeleton
import proofs.«105206_j85383949845128_1_alg».proof.Proof.Gen.KernelIdeal.Launch
import proofs.«105206_j85383949845128_1_alg».proof.Proof.Gen.KernelIdeal.Points
import proofs.«105206_j85383949845128_1_alg».proof.Proof.Gen.ReferenceIdeal
import proofs.«105206_j85383949845128_1_alg».proof.Proof.Gen.Pre_finite_inputs
import proofs.«105206_j85383949845128_1_alg».proof.Proof.BRunC
import proofs.«105206_j85383949845128_1_alg».proof.Proof.IRunC
import proofs.«105206_j85383949845128_1_alg».proof.Proof.IPairTotal
import proofs.«105206_j85383949845128_1_alg».proof.Proof.RefValue
import Idealize.ShloMosaic.Adequacy
import Idealize.ShloMosaic.Init

noncomputable section

namespace Cert.Proof

open Idealize.ShloMosaic Idealize.ShloMosaic.TcCoe Idealize.SL.Sem Cert.Kernel

section Claims

variable [hKernel : Cert.Kernel.Facts] [hKernelIdeal : Cert.KernelIdeal.Facts] [hReferenceIdeal : Cert.ReferenceIdeal.Facts]
  [hPre : Cert.Pre_finite_inputs.Facts]

/-- The kernel program as printed terminates, faults nowhere, and leaves both argument arrays as launched. -/
theorem frame_kernel : Cert.frame_Kernel := fun m ρ _ => Cert.Kernel.Hand.frame (F := Bits) m ρ

/-- So does its reading at the exact instance. -/
theorem frame_kernelIdeal : Cert.frame_KernelIdeal := fun m ρ _ => Cert.KernelIdeal.Hand.frame (F := Ideal) m ρ

/-- The reference is a straight-line host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- From memories that agree on the arguments, both programs end with the loss of the logits and labels as their result:
    the kernel program's last boundary holds it in the result buffer, the reference's composed term is it. -/
theorem algebraic : Cert.algebraic_KernelIdeal_ReferenceIdeal := by
  intro m ρ m' ρ' _ hagree
  refine ⟨fun c => fun _ => Cert.PairLoss.loss (Cert.KernelIdeal.PairValue.logitsMem m c) (Cert.KernelIdeal.PairValue.labelsMem m c), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v6 (by decide))).trans (Cert.KernelIdeal.PairValue.result_eq_loss m c)
    · exact (h c _ (Cert.KernelIdeal.Hand.mem_uc Cert.KernelIdeal.main_arg0 (by decide))).trans (Cert.KernelIdeal.Hand.W4_arg0 m c)
    · exact (h c _ (Cert.KernelIdeal.Hand.mem_uc Cert.KernelIdeal.main_arg1 (by decide))).trans (Cert.KernelIdeal.Hand.W4_arg1 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v43_eq, Cert.ReferenceIdeal.RefValue.val_eq_loss, (hagree c).1, (hagree c).2]
    rfl

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
